-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_arg8 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S128x64 .f32) (main_arg4 : FVec F S128 .f32) (main_arg5 : FVec F S128x64 .f32) (main_arg6 : FVec F S128x128 .f32) (main_arg7 : FVec F S128 .f32) (main_arg8 : FVec F S128x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S128x64 : Shape := ⟨2, ![128, 64]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩

abbrev nBuf : Space → Nat
  | .hbm => 87
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S_, .f32⟩
  | .hbm, ⟨40, _⟩ => ⟨S100000x64, .i1⟩
  | .hbm, ⟨41, _⟩ => ⟨S100000x64, .f32⟩
  | .hbm, ⟨42, _⟩ => ⟨S100000x64, .f32⟩
  | .hbm, ⟨43, _⟩ => ⟨S64x128, .f32⟩
  | .hbm, ⟨44, _⟩ => ⟨S64x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .i1⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S_, .f32⟩
  | .hbm, ⟨78, _⟩ => ⟨S100000x128, .i1⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S128x128, .f32⟩
  | .hbm, ⟨83, _⟩ => ⟨S1x128, .f32⟩
  | .hbm, ⟨84, _⟩ => ⟨S100000x128, .f32⟩
  | .hbm, ⟨85, _⟩ => ⟨S1x128, .f32⟩
  | .hbm, ⟨86, _⟩ => ⟨S128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  shapeCasts_S1x128_S128 : S1x128.ShapeCasts S128
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x128.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S100000x64 : Shape := ⟨2, ![100000, 64]⟩
abbrev S1600000 : Shape := ⟨1, ![1600000]⟩
abbrev S128x64 : Shape := ⟨2, ![128, 64]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S_, .f32⟩
  | .hbm, ⟨40, _⟩ => ⟨S100000x64, .i1⟩
  | .hbm, ⟨41, _⟩ => ⟨S100000x64, .f32⟩
  | .hbm, ⟨42, _⟩ => ⟨S100000x64, .f32⟩
  | .hbm, ⟨43, _⟩ => ⟨S64x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S64x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .i1⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S_, .f32⟩
  | .hbm, ⟨85, _⟩ => ⟨S100000x128, .i1⟩
  | .hbm, ⟨86, _⟩ => ⟨S100000x128, .f32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S128x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call3_cst : Ref sig .tc := ⟨.hbm, 96, rfl⟩
abbrev main_call3_v0 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  reducesTo_S100000x128_S128_d0 : S100000x128.ReducesTo [0] S128
  h_S_ : 0 < S_.numel
  bcast_S_S128 : S_.BroadcastsInDim S128 (![] : Fin 0 → Fin S128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.WordDenseRegions.lean ====
/-
  The two dense-layer regions of `Kernel`, each as a pipeline over twenty row blocks of 5000 nodes.

  At every grid point the body reads a block of node features, the matching block of neighbour means, the two weight
  matrices and the bias row (the last three the same block at every point), and writes one block of 5000 × 128 outputs.
  Nothing is carried from point to point and every block is loaded and stored whole, so the region's bookkeeping is
  the plainest kind: each input buffer still holds its block after the body, and the output buffer holds the body's one
  value. This file states that per region, at a parameter `V` for the buffer contents the region is entered with, and
  proves the obligation the pipeline asks of the body at every point.
-/
import proofs.«134253_j70806830841996_1_alg».proof.Proof.Gen.Kernel.Launch
import proofs.«134253_j70806830841996_1_alg».proof.Proof.Gen.Kernel.Skeleton
import proofs.«134253_j70806830841996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `cc0__combo_kernel`, at the contents `V` the region is entered with

The body is one rectangle-free pass: it loads five input blocks whole, forms one value and stores it over the whole
output block. So what the output's buffer holds after the body is that value, a function of the five input blocks. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether or not it was fetched there: where it
    was not, its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not it was fetched there: where it
    was not, its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not it was fetched there: where it
    was not, its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether or not it was fetched there: where it
    was not, its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, whether or not it was fetched there: where it
    was not, its block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_a : Rect S5000x64 := Rect.unit (s := S5000x64) ![0, 0] S5000x64.size inb_S5000x64_S5000x64_0_0
abbrev r0_w : Rect S64x128 := Rect.unit (s := S64x128) ![0, 0] S64x128.size inb_S64x128_S64x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- The output block after the body: the body's one value, of the five input blocks, stored over the whole block. -/
def out0_5 (x0 : Vec F S5000x64 .f32) (x1 : Vec F S5000x64 .f32) (x2 : Vec F S64x128 .f32) (x3 : Vec F S1x128 .f32) (x4 : Vec F S64x128 .f32) : Vec F S5000x128 .f32 :=
  View.canon [⟨r0_o, k0_pay1 (View.ld x0 r0_a) (View.ld x1 r0_a) (View.ld x2 r0_w) (View.ld x4 r0_w) (View.ld x3 r0_b)⟩]

/-- The one store covers the output block. -/
theorem cover0_5 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 4000000 in
/-- The body on whole staging buffers, the inputs' at `x0 … x4` and the output's at anything, runs to its return with
    the inputs' as they were and the output's at `out0_5` of them. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S64x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S1x128 .f32) (x4 : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combo_kernel i arg1 harg1 arg2 harg2 arg3 harg3 arg4 harg4 arg5 harg5 arg6 harg6) K := by
  simp only [cc0__combo_kernel_eq_skeleton]; unfold cc0__combo_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as the region finds them; after the body at point `t` each input's
    buffer still at its block and the output's at the body's value of the input blocks; the invariant holds the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__combo_kernel`, at the contents `V` the region is entered with

The body is one rectangle-free pass: it loads five input blocks whole, forms one value and stores it over the whole
output block. So what the output's buffer holds after the body is that value, a function of the five input blocks. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not it was fetched there: where it
    was not, its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not it was fetched there: where it
    was not, its block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether or not it was fetched there: where it
    was not, its block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether or not it was fetched there: where it
    was not, its block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether or not it was fetched there: where it
    was not, its block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_a : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-- The output block after the body: the body's one value, of the five input blocks, stored over the whole block. -/
def out1_5 (x0 : Vec F S5000x128 .f32) (x1 : Vec F S5000x128 .f32) (x2 : Vec F S128x128 .f32) (x3 : Vec F S1x128 .f32) (x4 : Vec F S128x128 .f32) : Vec F S5000x128 .f32 :=
  View.canon [⟨r1_o, k1_pay1 (View.ld x0 r1_a) (View.ld x1 r1_a) (View.ld x2 r1_w) (View.ld x4 r1_w) (View.ld x3 r1_b)⟩]

/-- The one store covers the output block. -/
theorem cover1_5 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

set_option maxHeartbeats 4000000 in
/-- The body on whole staging buffers, the inputs' at `x0 … x4` and the output's at anything, runs to its return with
    the inputs' as they were and the output's at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combo_kernel i arg1 harg1 arg2 harg2 arg3 harg3 arg4 harg4 arg5 harg5 arg6 harg6) K := by
  simp only [cc1__combo_kernel_eq_skeleton]; unfold cc1__combo_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer still at its block and the output's at the body's value of the input blocks; the invariant holds the scoped
    buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.WordPoolRuns.lean ====
/-
  The pooling region of `Kernel`: what decides the body's two branches, where its output window is idle, and the
  body run whole in each of its three cases.

  The body keeps a running row of column sums in a scratch buffer. At the first of the twenty grid points it clears the
  row; at every point it adds the column sums of the point's block of 5000 nodes; at the last point it also writes the
  row times the constant to the output block. So a point is in one of three cases — first, middle, last — decided by its
  position alone, and the output window is touched at the last point only.
-/
import proofs.«134253_j70806830841996_1_alg».proof.Proof.Gen.Kernel.Launch
import proofs.«134253_j70806830841996_1_alg».proof.Proof.Gen.Kernel.Skeleton
import proofs.«134253_j70806830841996_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "This is the first point": the body's first `if`, as a function of the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the body's second `if`. -/
abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)

/-! ## Where the windows are idle -/

/-- The input window is never idle. -/
theorem liveAt2_0 : ∀ t : Fin cfg2.N, cfg2.idle 0 (grid2.coords t) = false := by decide +kernel
/-- At the first point the output window is idle and is not written back. -/
theorem idleAt2_1_A : ∀ t : Fin cfg2.N, cond2_0 (grid2.coords t) → ¬cond2_1 (grid2.coords t) → cfg2.idle 1 (grid2.coords t) = true := by decide +kernel
theorem noFlush2_1_A : ∀ t : Fin cfg2.N, cond2_0 (grid2.coords t) → ¬cond2_1 (grid2.coords t) → (cfg2.win 1).flush t = false := by decide +kernel
/-- The same at the middle points. -/
theorem idleAt2_1_B : ∀ t : Fin cfg2.N, ¬cond2_0 (grid2.coords t) → ¬cond2_1 (grid2.coords t) → cfg2.idle 1 (grid2.coords t) = true := by decide +kernel
theorem noFlush2_1_B : ∀ t : Fin cfg2.N, ¬cond2_0 (grid2.coords t) → ¬cond2_1 (grid2.coords t) → (cfg2.win 1).flush t = false := by decide +kernel
/-- At the last point the output window is live. -/
theorem liveAt2_1_C : ∀ t : Fin cfg2.N, ¬cond2_0 (grid2.coords t) → cond2_1 (grid2.coords t) → cfg2.idle 1 (grid2.coords t) = false := by decide +kernel

/-! ## The buffers the body is called with -/

/-- One staging buffer of the output window, through which its contents are stated. -/
abbrev VO2_1 : View sig .tc .vmem S1x128 .f32 := (Memref.whole cc2_stg1_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
/-- The running row of column sums: a whole scoped buffer of the kernel's own. -/
abbrev scM2 : Memref sig .tc .vmem S1x128 .f32 := Memref.whole cc2_scratch0
abbrev VS2_0 : View sig .tc .vmem S1x128 .f32 := scM2.view

/-! ## The body, run whole, case by case

Each run gives, as lists of stored pieces (last first), what the body's stores leave in the output buffer and in the
running row, with the proof that from whole buffers the body runs to its return leaving exactly those. -/

set_option maxHeartbeats 4000000 in
/-- FIRST POINT: the running row, at anything, is cleared and then holds the block's column sums; the output buffer is
    handed back untouched. -/
noncomputable def kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i)
    (x0 : Vec F S5000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- MIDDLE POINTS: the running row, at what the point before left, gains the block's column sums; the output buffer is
    handed back untouched. -/
noncomputable def kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i)
    (x0 : Vec F S5000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- LAST POINT: the running row gains the block's column sums, and the output buffer receives the row times the
    constant. -/
noncomputable def kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i)
    (x0 : Vec F S5000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨?_, ?_, fun E K => ?run⟩
  case run =>
    simp only [cc2__mean_pool_kernel_eq_skeleton]; unfold cc2__mean_pool_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Fr

end
-- ==== Proof.WordPoolRegion.lean ====
/-
  The pooling region of `Kernel` as a pipeline over twenty blocks: what the running row and the output block hold
  after each point, the invariant that carries the running row from point to point, the proof data, and the obligation
  the pipeline asks of the body at every point.

  After point n the running row holds the column sums of blocks 0 … n (the first point starts it from a cleared row,
  every later point adds to what the point before left). The output block is stored at the last point only; at the
  other points its window is idle and its buffer is handed back as it was.
-/
import proofs.«134253_j70806830841996_1_alg».proof.Proof.WordPoolRuns
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- FIRST POINT: nothing is stored into the output block (a placeholder nothing consults). -/
def out2_A_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) : Vec F S1x128 .f32 :=
  VO2_1.read (Elt F) (VO2_1.writes (Elt F) VO2_1.junk (kernelRun2_A c i arg1 harg1 arg2 harg2 arg3 harg3 hc0 hc1 x0).1)
/-- Its stores into the running row cover it. -/
theorem scover2_A_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) (y : S1x128.Idx) :
    ∃ pc ∈ (kernelRun2_A c i arg1 harg1 arg2 harg2 arg3 harg3 hc0 hc1 x0).2.1, y ∈ pc.1.set :=
  View.cover_of_tiledL (kernelRun2_A c i arg1 harg1 arg2 harg2 arg3 harg3 hc0 hc1 x0).2.1 S1x128.size (by sl_kernel_rfl) y
/-- The running row after the first point. -/
def sout2_A_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) : Vec F S1x128 .f32 :=
  VS2_0.read (Elt F) (VS2_0.writes (Elt F) VS2_0.junk (kernelRun2_A c i arg1 harg1 arg2 harg2 arg3 harg3 hc0 hc1 x0).2.1)

/-- MIDDLE POINTS: nothing is stored into the output block. -/
def out2_B_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) : Vec F S1x128 .f32 :=
  VO2_1.read (Elt F) (VO2_1.writes (Elt F) VO2_1.junk (kernelRun2_B c i arg1 harg1 arg2 harg2 arg3 harg3 hc0 hc1 x0 xs0).1)
theorem scover2_B_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) (y : S1x128.Idx) :
    ∃ pc ∈ (kernelRun2_B c i arg1 harg1 arg2 harg2 arg3 harg3 hc0 hc1 x0 xs0).2.1, y ∈ pc.1.set :=
  View.cover_of_tiledL (kernelRun2_B c i arg1 harg1 arg2 harg2 arg3 harg3 hc0 hc1 x0 xs0).2.1 S1x128.size (by sl_kernel_rfl) y
/-- The running row after a middle point, over what the point before left (`xs0`). -/
def sout2_B_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) : Vec F S1x128 .f32 :=
  VS2_0.read (Elt F) (VS2_0.writes (Elt F) VS2_0.junk (kernelRun2_B c i arg1 harg1 arg2 harg2 arg3 harg3 hc0 hc1 x0 xs0).2.1)

/-- LAST POINT: the one store into the output block covers it. -/
theorem cover2_C_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) (y : S1x128.Idx) :
    ∃ pc ∈ (kernelRun2_C c i arg1 harg1 arg2 harg2 arg3 harg3 hc0 hc1 x0 xs0).1, y ∈ pc.1.set :=
  View.cover_of_tiledL (kernelRun2_C c i arg1 harg1 arg2 harg2 arg3 harg3 hc0 hc1 x0 xs0).1 S1x128.size (by sl_kernel_rfl) y
/-- The output block after the last point. -/
def out2_C_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) : Vec F S1x128 .f32 :=
  VO2_1.read (Elt F) (VO2_1.writes (Elt F) VO2_1.junk (kernelRun2_C c i arg1 harg1 arg2 harg2 arg3 harg3 hc0 hc1 x0 xs0).1)
theorem scover2_C_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) (y : S1x128.Idx) :
    ∃ pc ∈ (kernelRun2_C c i arg1 harg1 arg2 harg2 arg3 harg3 hc0 hc1 x0 xs0).2.1, y ∈ pc.1.set :=
  View.cover_of_tiledL (kernelRun2_C c i arg1 harg1 arg2 harg2 arg3 harg3 hc0 hc1 x0 xs0).2.1 S1x128.size (by sl_kernel_rfl) y
/-- The running row after the last point. -/
def sout2_C_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) : Vec F S1x128 .f32 :=
  VS2_0.read (Elt F) (VS2_0.writes (Elt F) VS2_0.junk (kernelRun2_C c i arg1 harg1 arg2 harg2 arg3 harg3 hc0 hc1 x0 xs0).2.1)

/-! ## The accumulation, point by point -/

/-- What the output buffer and the running row hold after the body at position `n` (a pair: the output, the row): the
    case the position selects, run on the point's buffers and block, the row at what position `n - 1` left. -/
def outsAt2 (c : Dev nD) : (n : ℕ) → n < cfg2.N → Vec F S1x128 .f32 × Vec F S1x128 .f32
  | 0, hn =>
    (out2_A_1 c (grid2.coords ⟨0, hn⟩) (ms2_0 ⟨0, hn⟩) (hs2_0 ⟨0, hn⟩) (ms2_1 ⟨0, hn⟩) (hs2_1 ⟨0, hn⟩) scM2 (Memref.isWhole_whole _) ((hcond2_0 ⟨0, hn⟩).mpr rfl) (fun h => absurd ((hcond2_1 ⟨0, hn⟩).mp h) (show ¬((0 : ℕ) = 19) by decide)) (iblk2 V c 0 ⟨0, hn⟩),
     sout2_A_0 c (grid2.coords ⟨0, hn⟩) (ms2_0 ⟨0, hn⟩) (hs2_0 ⟨0, hn⟩) (ms2_1 ⟨0, hn⟩) (hs2_1 ⟨0, hn⟩) scM2 (Memref.isWhole_whole _) ((hcond2_0 ⟨0, hn⟩).mpr rfl) (fun h => absurd ((hcond2_1 ⟨0, hn⟩).mp h) (show ¬((0 : ℕ) = 19) by decide)) (iblk2 V c 0 ⟨0, hn⟩))
  | n + 1, hn =>
    if h1 : n + 1 = 19 then
      (out2_C_1 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (outsAt2 c n (Nat.lt_of_succ_lt hn)).2)
    else
      (out2_B_1 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (outsAt2 c n (Nat.lt_of_succ_lt hn)).2,
       sout2_B_0 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (outsAt2 c n (Nat.lt_of_succ_lt hn)).2)

/-- At the first point: the first case's contents. -/
theorem outsAt2_A (c : Dev nD) (t : Fin cfg2.N) (h0 : t.val = 0) (h1 : ¬t.val = 19) :
    outsAt2 V c t.val t.isLt
      = (out2_A_1 c (grid2.coords t) (ms2_0 t) (hs2_0 t) (ms2_1 t) (hs2_1 t) scM2 (Memref.isWhole_whole _) ((hcond2_0 t).mpr h0) (fun h => h1 ((hcond2_1 t).mp h)) (iblk2 V c 0 t),
         sout2_A_0 c (grid2.coords t) (ms2_0 t) (hs2_0 t) (ms2_1 t) (hs2_1 t) scM2 (Memref.isWhole_whole _) ((hcond2_0 t).mpr h0) (fun h => h1 ((hcond2_1 t).mp h)) (iblk2 V c 0 t)) := by
  obtain ⟨n, hn⟩ := t
  cases n with
  | zero => rfl
  | succ n => exact absurd h0 (Nat.succ_ne_zero n)

/-- At a middle point: the middle case's contents, over what the point before left. -/
theorem outsAt2_B (c : Dev nD) (t : Fin cfg2.N) (h0 : ¬t.val = 0) (h1 : ¬t.val = 19) :
    outsAt2 V c t.val t.isLt
      = (out2_B_1 c (grid2.coords t) (ms2_0 t) (hs2_0 t) (ms2_1 t) (hs2_1 t) scM2 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2,
         sout2_B_0 c (grid2.coords t) (ms2_0 t) (hs2_0 t) (ms2_1 t) (hs2_1 t) scM2 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem outsAt2_C (c : Dev nD) (t : Fin cfg2.N) (h0 : ¬t.val = 0) (h1 : t.val = 19) :
    outsAt2 V c t.val t.isLt
      = (out2_C_1 c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2,
         sout2_C_0 c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The core's scoped buffers that are neither a staging buffer of this region nor its running row, at anything. -/
abbrev restBut (c : Dev nD) : sProp 𝕄 :=
  Pipeline.scopedRestBut (Ix := Unit) (Name := ℕ) (U := UR sig nD τ) (Lvl := ℕ) (Val := Elt F) spec2 c [cc2_scratch0]

/-- The class's invariant with the running row split out of the scoped rest. -/
theorem PhiA2_eq (c : Dev nD) :
    (Pipeline.ΦA spec2 c : sProp 𝕄)
      = iprop(iprop((∃ d, owns (c : Thread nD τ) scM2 fullShare d) ∗ restBut c) ∗ (∃ r, prngReg c r)) := by
  unfold Pipeline.ΦA restBut
  rw [Pipeline.scopedRest_split_of_list spec2 c [cc2_scratch0] (by decide) (by decide)]
  simp only [scM2, owns_whole]
  try rfl

/-- The invariant before position `n`: before the first point every scoped buffer no window stages is at anything;
    afterwards the running row holds what the point before left. -/
def PhiS (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM2 fullShare ((outsAt2 V c n hn).2) ∗ restBut c) ∗ (∃ r, prngReg c r)) := rfl
theorem PhiS_pos (c : Dev nD) (n : ℕ) (h : n ≤ cfg2.N) (hz : n ≠ 0) :
    PhiS V c n h = iprop(iprop(owns (c : Thread nD τ) scM2 fullShare ((outsAt2 V c (n - 1) (by omega)).2) ∗ restBut c) ∗ (∃ r, prngReg c r)) := by
  cases n with
  | zero => exact absurd rfl hz
  | succ n => rfl

/-! ## The proof data -/

/-- The region's proof data on core `c`: the arrays as the region finds them; after the body at point `t` the input's
    buffer at its block and the output's at the accumulation's first component; the invariant above; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point: the input's buffer holds its block; the position says which case the point is in; the
    invariant hands the body the running row at what the point before left (at anything at the first point) and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS V c (t.val + 1) t.isLt from rfl, PhiS_succ]
  have hN : t.val < 20 := lt_of_lt_of_eq t.isLt (show cfg2.N = 20 from N_2)
  by_cases h0 : t.val = 0
  · have h1 : ¬t.val = 19 := by omega
    rw [show (dat2 V c).leavesExact 0 t = owns (c : Thread nD τ) (ms2_0 t) fullShare ((dat2 V c).after 0 t) from by
      unfold Dat.leavesExact; rw [liveAt2_0 t], after2_0]
    rw [Dat.leavesExact_idle (dat2 V c) 1 t (idleAt2_1_A t ((hcond2_0 t).mpr h0) (fun h => h1 ((hcond2_1 t).mp h))) (noFlush2_1_A t ((hcond2_0 t).mpr h0) (fun h => h1 ((hcond2_1 t).mp h)))]
    rw [outsAt2_A V c t h0 h1]
    unfold sout2_A_0; (try dsimp only)
    rw [PhiS_castSucc V c t, PhiS_zero V c _ _ h0, PhiA2_eq]
    iintro ⟨⟨⟨HS0, HR⟩, Hg⟩, Ho, ⟨%d0, H0⟩, ⟨%d1, H1⟩⟩
    iapply ((kernelRun2_A c (grid2.coords t) _ _ _ _ _ _ ((hcond2_0 t).mpr h0) (fun h => h1 ((hcond2_1 t).mp h)) (iblk2 V c 0 t)).2.2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _)
        iexact HR
      iexact Hg
    isplitl [Ho]; · iexact Ho
    isplitl [H0]; · iexact H0
    iexists _; iexact H1
  · by_cases h1 : t.val = 19
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1_C t (fun h => h0 ((hcond2_0 t).mp h)) ((hcond2_1 t).mpr h1)], after2_1]
      rw [outsAt2_C V c t h0 h1]
      unfold out2_C_1 sout2_C_0; (try dsimp only)
      rw [PhiS_castSucc V c t, PhiS_pos V c _ _ h0]
      iintro ⟨⟨⟨HS0, HR⟩, Hg⟩, Ho, ⟨%d0, H0⟩, ⟨%d1, H1⟩⟩
      iapply ((kernelRun2_C c (grid2.coords t) _ _ _ _ _ _ (fun h => h0 ((hcond2_0 t).mp h)) ((hcond2_1 t).mpr h1) (iblk2 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover2_C_1 c _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [Dat.leavesExact_idle (dat2 V c) 1 t (idleAt2_1_B t (fun h => h0 ((hcond2_0 t).mp h)) (fun h => h1 ((hcond2_1 t).mp h))) (noFlush2_1_B t (fun h => h0 ((hcond2_0 t).mp h)) (fun h => h1 ((hcond2_1 t).mp h)))]
      rw [outsAt2_B V c t h0 h1]
      unfold sout2_B_0; (try dsimp only)
      rw [PhiS_castSucc V c t, PhiS_pos V c _ _ h0]
      iintro ⟨⟨⟨HS0, HR⟩, Hg⟩, Ho, ⟨%d0, H0⟩, ⟨%d1, H1⟩⟩
      iapply ((kernelRun2_B c (grid2.coords t) _ _ _ _ _ _ (fun h => h0 ((hcond2_0 t).mp h)) (fun h => h1 ((hcond2_1 t).mp h)) (iblk2 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _)
          iexact HR
        iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the class's. -/
theorem Phi_in2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class's back: what the running row holds is forgotten. -/
theorem Phi_out2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 20 := N_2; omega), PhiA2_eq]
  iintro ⟨⟨HS0, HR⟩, Hg⟩
  isplitl [HS0 HR]
  · isplitl [HS0]
    · iexists _; iexact HS0
    iexact HR
  iexact Hg

end Cert.Kernel.Fr

end
-- ==== Proof.WordRun.lean ====
/-
  `Kernel`'s @main from the launch to the return, as ten segments: three stretches of host operations, the first dense
  layer's region, three more stretches, the second layer's region, the pooling region, and a last reshape.

  The buffer contents at each boundary are a fold from the launch memory: a stretch applies its operations; a region
  leaves its arrays at what its write-backs leave and every other buffer as it found it. The run below says every
  weakly fair execution of @main terminates with every unscoped buffer at the last boundary's contents — from which
  both the frame (no argument array is ever written) and the result's value are read.
-/
import proofs.«134253_j70806830841996_1_alg».proof.Proof.WordDenseRegions
import proofs.«134253_j70806830841996_1_alg».proof.Proof.WordPoolRegion
import proofs.«134253_j70806830841996_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (an input as entered, the output with every
    write-back folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- Region 1's entry. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b

/-- At region 1's exit: its arrays at what the pipeline leaves (an input as entered, the output with every
    write-back folded in), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- At region 2's exit: its arrays at what the pipeline leaves (an input as entered, the output with every
    write-back folded in), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last reshape: the return. -/
abbrev W10 : Dev nD → Valuation τ sig (Elt F) := fun c => StableHlo.after hostOps3 (W9 m ρ c)

/-! ## No segment writes an argument array -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W6_of (c : Dev nD) (r : Ref sig .tc) (h : r ∉ hostOps1_1_W) : W6 m ρ c r = W5 m ρ c r :=
  StableHlo.after_of_writes_sub hostOps1_1 _ hostOps1_1_writes h
theorem W7_of (c : Dev nD) (r : Ref sig .tc) (h : r ∉ hostOps1_2_W) : W7 m ρ c r = W6 m ρ c r :=
  StableHlo.after_of_writes_sub hostOps1_2 _ hostOps1_2_writes h
theorem W10_of (c : Dev nD) (r : Ref sig .tc) (h : r ∉ hostOps3_W) : W10 m ρ c r = W9 m ρ c r :=
  StableHlo.after_of_writes_sub hostOps3 _ hostOps3_writes h

/-- The node features reach the end as launched: no stretch writes them, and the one region that stages them reads
    them through an input window. -/
theorem W10_main_arg0 (c : Dev nD) : W10 m ρ c (Proc.devRef .tc main_arg0) = m ((c : Thread nD τ).loc main_arg0) :=
  (W10_of m ρ c main_arg0 (by decide)).trans <| (W9_of_ne m ρ c main_arg0 (by decide)).trans <| (W8_of_ne m ρ c main_arg0 (by decide)).trans <|
  (W7_of m ρ c main_arg0 (by decide)).trans <| (W6_of m ρ c main_arg0 (by decide)).trans <| (W5_of m ρ c main_arg0 (by decide)).trans <|
  ((W4_arr m ρ c 0).trans (((dat0 (V3 m ρ) c).arrAt_in 0 rfl _).trans (A_eq0 (V3 m ρ) c 0))).trans <|
  (W3_of m ρ c main_arg0 (by decide)).trans <| (W2_of m ρ c main_arg0 (by decide)).trans <| (W1_of m ρ c main_arg0 (by decide)).trans rfl
/-- Argument 1 reaches the end as launched: no stretch writes it and no region stages it. -/
theorem W10_main_arg1 (c : Dev nD) : W10 m ρ c (Proc.devRef .tc main_arg1) = m ((c : Thread nD τ).loc main_arg1) :=
  (W10_of m ρ c main_arg1 (by decide)).trans <| (W9_of_ne m ρ c main_arg1 (by decide)).trans <| (W8_of_ne m ρ c main_arg1 (by decide)).trans <|
  (W7_of m ρ c main_arg1 (by decide)).trans <| (W6_of m ρ c main_arg1 (by decide)).trans <| (W5_of m ρ c main_arg1 (by decide)).trans <|
  (W4_of_ne m ρ c main_arg1 (by decide)).trans <|
  (W3_of m ρ c main_arg1 (by decide)).trans <| (W2_of m ρ c main_arg1 (by decide)).trans <| (W1_of m ρ c main_arg1 (by decide)).trans rfl
/-- Argument 2 reaches the end as launched: no stretch writes it and no region stages it. -/
theorem W10_main_arg2 (c : Dev nD) : W10 m ρ c (Proc.devRef .tc main_arg2) = m ((c : Thread nD τ).loc main_arg2) :=
  (W10_of m ρ c main_arg2 (by decide)).trans <| (W9_of_ne m ρ c main_arg2 (by decide)).trans <| (W8_of_ne m ρ c main_arg2 (by decide)).trans <|
  (W7_of m ρ c main_arg2 (by decide)).trans <| (W6_of m ρ c main_arg2 (by decide)).trans <| (W5_of m ρ c main_arg2 (by decide)).trans <|
  (W4_of_ne m ρ c main_arg2 (by decide)).trans <|
  (W3_of m ρ c main_arg2 (by decide)).trans <| (W2_of m ρ c main_arg2 (by decide)).trans <| (W1_of m ρ c main_arg2 (by decide)).trans rfl
/-- Argument 3 reaches the end as launched: no stretch writes it and no region stages it. -/
theorem W10_main_arg3 (c : Dev nD) : W10 m ρ c (Proc.devRef .tc main_arg3) = m ((c : Thread nD τ).loc main_arg3) :=
  (W10_of m ρ c main_arg3 (by decide)).trans <| (W9_of_ne m ρ c main_arg3 (by decide)).trans <| (W8_of_ne m ρ c main_arg3 (by decide)).trans <|
  (W7_of m ρ c main_arg3 (by decide)).trans <| (W6_of m ρ c main_arg3 (by decide)).trans <| (W5_of m ρ c main_arg3 (by decide)).trans <|
  (W4_of_ne m ρ c main_arg3 (by decide)).trans <|
  (W3_of m ρ c main_arg3 (by decide)).trans <| (W2_of m ρ c main_arg3 (by decide)).trans <| (W1_of m ρ c main_arg3 (by decide)).trans rfl
/-- Argument 4 reaches the end as launched: no stretch writes it and no region stages it. -/
theorem W10_main_arg4 (c : Dev nD) : W10 m ρ c (Proc.devRef .tc main_arg4) = m ((c : Thread nD τ).loc main_arg4) :=
  (W10_of m ρ c main_arg4 (by decide)).trans <| (W9_of_ne m ρ c main_arg4 (by decide)).trans <| (W8_of_ne m ρ c main_arg4 (by decide)).trans <|
  (W7_of m ρ c main_arg4 (by decide)).trans <| (W6_of m ρ c main_arg4 (by decide)).trans <| (W5_of m ρ c main_arg4 (by decide)).trans <|
  (W4_of_ne m ρ c main_arg4 (by decide)).trans <|
  (W3_of m ρ c main_arg4 (by decide)).trans <| (W2_of m ρ c main_arg4 (by decide)).trans <| (W1_of m ρ c main_arg4 (by decide)).trans rfl
/-- Argument 5 reaches the end as launched: no stretch writes it and no region stages it. -/
theorem W10_main_arg5 (c : Dev nD) : W10 m ρ c (Proc.devRef .tc main_arg5) = m ((c : Thread nD τ).loc main_arg5) :=
  (W10_of m ρ c main_arg5 (by decide)).trans <| (W9_of_ne m ρ c main_arg5 (by decide)).trans <| (W8_of_ne m ρ c main_arg5 (by decide)).trans <|
  (W7_of m ρ c main_arg5 (by decide)).trans <| (W6_of m ρ c main_arg5 (by decide)).trans <| (W5_of m ρ c main_arg5 (by decide)).trans <|
  (W4_of_ne m ρ c main_arg5 (by decide)).trans <|
  (W3_of m ρ c main_arg5 (by decide)).trans <| (W2_of m ρ c main_arg5 (by decide)).trans <| (W1_of m ρ c main_arg5 (by decide)).trans rfl
/-- Argument 6 reaches the end as launched: no stretch writes it and no region stages it. -/
theorem W10_main_arg6 (c : Dev nD) : W10 m ρ c (Proc.devRef .tc main_arg6) = m ((c : Thread nD τ).loc main_arg6) :=
  (W10_of m ρ c main_arg6 (by decide)).trans <| (W9_of_ne m ρ c main_arg6 (by decide)).trans <| (W8_of_ne m ρ c main_arg6 (by decide)).trans <|
  (W7_of m ρ c main_arg6 (by decide)).trans <| (W6_of m ρ c main_arg6 (by decide)).trans <| (W5_of m ρ c main_arg6 (by decide)).trans <|
  (W4_of_ne m ρ c main_arg6 (by decide)).trans <|
  (W3_of m ρ c main_arg6 (by decide)).trans <| (W2_of m ρ c main_arg6 (by decide)).trans <| (W1_of m ρ c main_arg6 (by decide)).trans rfl
/-- Argument 7 reaches the end as launched: no stretch writes it and no region stages it. -/
theorem W10_main_arg7 (c : Dev nD) : W10 m ρ c (Proc.devRef .tc main_arg7) = m ((c : Thread nD τ).loc main_arg7) :=
  (W10_of m ρ c main_arg7 (by decide)).trans <| (W9_of_ne m ρ c main_arg7 (by decide)).trans <| (W8_of_ne m ρ c main_arg7 (by decide)).trans <|
  (W7_of m ρ c main_arg7 (by decide)).trans <| (W6_of m ρ c main_arg7 (by decide)).trans <| (W5_of m ρ c main_arg7 (by decide)).trans <|
  (W4_of_ne m ρ c main_arg7 (by decide)).trans <|
  (W3_of m ρ c main_arg7 (by decide)).trans <| (W2_of m ρ c main_arg7 (by decide)).trans <| (W1_of m ρ c main_arg7 (by decide)).trans rfl
/-- Argument 8 reaches the end as launched: no stretch writes it and no region stages it. -/
theorem W10_main_arg8 (c : Dev nD) : W10 m ρ c (Proc.devRef .tc main_arg8) = m ((c : Thread nD τ).loc main_arg8) :=
  (W10_of m ρ c main_arg8 (by decide)).trans <| (W9_of_ne m ρ c main_arg8 (by decide)).trans <| (W8_of_ne m ρ c main_arg8 (by decide)).trans <|
  (W7_of m ρ c main_arg8 (by decide)).trans <| (W6_of m ρ c main_arg8 (by decide)).trans <| (W5_of m ρ c main_arg8 (by decide)).trans <|
  (W4_of_ne m ρ c main_arg8 (by decide)).trans <|
  (W3_of m ρ c main_arg8 (by decide)).trans <| (W2_of m ρ c main_arg8 (by decide)).trans <| (W1_of m ρ c main_arg8 (by decide)).trans rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W3`, left with them at `W4`. Its
    arrays are split out of the unscoped buffers on entry and put back at what the write-backs leave on exit; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W7`, left with them at `W8`. Its
    arrays are split out of the unscoped buffers on entry and put back at what the write-backs leave on exit; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W8`, left with them at `W9`. Its
    arrays are split out of the unscoped buffers on entry and put back at what the write-backs leave on exit; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 2).pre c (fun _ => fullShare) (adm 2).1 ∗ Pipeline.scopedRest (Pipeline.pin (pcfgs (F := F)) adm 2).spec c) ⊢ (Pipeline.ΦA spec2 c : sProp 𝕄) from by
      unfold Pipeline.ΦA
      iintro ⟨Hp, -, Hr⟩
      isplitl [Hr]; · iexact Hr
      iexact Hp).trans (Phi_in2 (V8 m ρ) c)
  hout c := (Phi_out2 (V8 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .region (reg2 m ρ),
    .host (hseg hostOps3 hostOps3_sub hostOps3_fresh (W9 m ρ)) ]

set_option backward.isDefEq.respectTransparency.types false in
/-- THE RUN: from any memory with zero counters every weakly fair execution of @main terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2,
          Prog.lift (.customCall (Pipeline.entry 0) ()),
          StableHlo.seq hostOps1, StableHlo.seq hostOps1_1, StableHlo.seq hostOps1_2,
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun c =>
        (show iprop(StableHlo.held (c : Thread nD τ) (Pipeline.ucRefs τ sig) (W10 m ρ c) ∗ iprop((∃ r, prngReg c r) ∗ ∃ W, owes (c : Thread nD τ) (0 : CellTallies nD τ sig Unit) W))
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c)⟩) (run_all m ρ)

end Cert.Kernel.Fr

end
-- ==== Proof.IdealDenseRegions.lean ====
/-
  The two dense-layer regions of `KernelIdeal`, each as a pipeline over twenty row blocks of 5000 nodes.

  At every grid point the body reads a block of node features, the matching block of neighbour means, the two weight
  matrices and the bias row (the last three the same block at every point), and writes one block of 5000 × 128 outputs.
  Nothing is carried from point to point and every block is loaded and stored whole, so the region's bookkeeping is
  the plainest kind: each input buffer still holds its block after the body, and the output buffer holds the body's one
  value. This file states that per region, at a parameter `V` for the buffer contents the region is entered with, and
  proves the obligation the pipeline asks of the body at every point.
-/
import proofs.«134253_j70806830841996_1_alg».proof.Proof.Gen.KernelIdeal.Launch
import proofs.«134253_j70806830841996_1_alg».proof.Proof.Gen.KernelIdeal.Skeleton
import proofs.«134253_j70806830841996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0: `cc0__combo_kernel`, at the contents `V` the region is entered with

The body is one rectangle-free pass: it loads five input blocks whole, forms one value and stores it over the whole
output block. So what the output's buffer holds after the body is that value, a function of the five input blocks. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether or not it was fetched there: where it
    was not, its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not it was fetched there: where it
    was not, its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not it was fetched there: where it
    was not, its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether or not it was fetched there: where it
    was not, its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, whether or not it was fetched there: where it
    was not, its block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_a : Rect S5000x64 := Rect.unit (s := S5000x64) ![0, 0] S5000x64.size inb_S5000x64_S5000x64_0_0
abbrev r0_w : Rect S64x128 := Rect.unit (s := S64x128) ![0, 0] S64x128.size inb_S64x128_S64x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- The output block after the body: the body's one value, of the five input blocks, stored over the whole block. -/
def out0_5 (x0 : Vec F S5000x64 .f32) (x1 : Vec F S5000x64 .f32) (x2 : Vec F S64x128 .f32) (x3 : Vec F S1x128 .f32) (x4 : Vec F S64x128 .f32) : Vec F S5000x128 .f32 :=
  View.canon [⟨r0_o, k0_pay1 (View.ld x0 r0_a) (View.ld x1 r0_a) (View.ld x2 r0_w) (View.ld x4 r0_w) (View.ld x3 r0_b)⟩]

/-- The one store covers the output block. -/
theorem cover0_5 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 4000000 in
/-- The body on whole staging buffers, the inputs' at `x0 … x4` and the output's at anything, runs to its return with
    the inputs' as they were and the output's at `out0_5` of them. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S64x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S1x128 .f32) (x4 : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combo_kernel i arg1 harg1 arg2 harg2 arg3 harg3 arg4 harg4 arg5 harg5 arg6 harg6) K := by
  simp only [cc0__combo_kernel_eq_skeleton]; unfold cc0__combo_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as the region finds them; after the body at point `t` each input's
    buffer still at its block and the output's at the body's value of the input blocks; the invariant holds the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__combo_kernel`, at the contents `V` the region is entered with

The body is one rectangle-free pass: it loads five input blocks whole, forms one value and stores it over the whole
output block. So what the output's buffer holds after the body is that value, a function of the five input blocks. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not it was fetched there: where it
    was not, its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not it was fetched there: where it
    was not, its block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether or not it was fetched there: where it
    was not, its block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether or not it was fetched there: where it
    was not, its block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether or not it was fetched there: where it
    was not, its block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_a : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-- The output block after the body: the body's one value, of the five input blocks, stored over the whole block. -/
def out1_5 (x0 : Vec F S5000x128 .f32) (x1 : Vec F S5000x128 .f32) (x2 : Vec F S128x128 .f32) (x3 : Vec F S1x128 .f32) (x4 : Vec F S128x128 .f32) : Vec F S5000x128 .f32 :=
  View.canon [⟨r1_o, k1_pay1 (View.ld x0 r1_a) (View.ld x1 r1_a) (View.ld x2 r1_w) (View.ld x4 r1_w) (View.ld x3 r1_b)⟩]

/-- The one store covers the output block. -/
theorem cover1_5 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

set_option maxHeartbeats 4000000 in
/-- The body on whole staging buffers, the inputs' at `x0 … x4` and the output's at anything, runs to its return with
    the inputs' as they were and the output's at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combo_kernel i arg1 harg1 arg2 harg2 arg3 harg3 arg4 harg4 arg5 harg5 arg6 harg6) K := by
  simp only [cc1__combo_kernel_eq_skeleton]; unfold cc1__combo_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer still at its block and the output's at the body's value of the input blocks; the invariant holds the scoped
    buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealPoolRuns.lean ====
/-
  The pooling region of `KernelIdeal`: what decides the body's two branches, where its output window is idle, and the
  body run whole in each of its three cases.

  The body keeps a running row of column sums in a scratch buffer. At the first of the twenty grid points it clears the
  row; at every point it adds the column sums of the point's block of 5000 nodes; at the last point it also writes the
  row times the constant to the output block. So a point is in one of three cases — first, middle, last — decided by its
  position alone, and the output window is touched at the last point only.
-/
import proofs.«134253_j70806830841996_1_alg».proof.Proof.Gen.KernelIdeal.Launch
import proofs.«134253_j70806830841996_1_alg».proof.Proof.Gen.KernelIdeal.Skeleton
import proofs.«134253_j70806830841996_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- "This is the first point": the body's first `if`, as a function of the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the body's second `if`. -/
abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)

/-! ## Where the windows are idle -/

/-- The input window is never idle. -/
theorem liveAt2_0 : ∀ t : Fin cfg2.N, cfg2.idle 0 (grid2.coords t) = false := by decide +kernel
/-- At the first point the output window is idle and is not written back. -/
theorem idleAt2_1_A : ∀ t : Fin cfg2.N, cond2_0 (grid2.coords t) → ¬cond2_1 (grid2.coords t) → cfg2.idle 1 (grid2.coords t) = true := by decide +kernel
theorem noFlush2_1_A : ∀ t : Fin cfg2.N, cond2_0 (grid2.coords t) → ¬cond2_1 (grid2.coords t) → (cfg2.win 1).flush t = false := by decide +kernel
/-- The same at the middle points. -/
theorem idleAt2_1_B : ∀ t : Fin cfg2.N, ¬cond2_0 (grid2.coords t) → ¬cond2_1 (grid2.coords t) → cfg2.idle 1 (grid2.coords t) = true := by decide +kernel
theorem noFlush2_1_B : ∀ t : Fin cfg2.N, ¬cond2_0 (grid2.coords t) → ¬cond2_1 (grid2.coords t) → (cfg2.win 1).flush t = false := by decide +kernel
/-- At the last point the output window is live. -/
theorem liveAt2_1_C : ∀ t : Fin cfg2.N, ¬cond2_0 (grid2.coords t) → cond2_1 (grid2.coords t) → cfg2.idle 1 (grid2.coords t) = false := by decide +kernel

/-! ## The buffers the body is called with -/

/-- One staging buffer of the output window, through which its contents are stated. -/
abbrev VO2_1 : View sig .tc .vmem S1x128 .f32 := (Memref.whole cc2_stg1_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
/-- The running row of column sums: a whole scoped buffer of the kernel's own. -/
abbrev scM2 : Memref sig .tc .vmem S1x128 .f32 := Memref.whole cc2_scratch0
abbrev VS2_0 : View sig .tc .vmem S1x128 .f32 := scM2.view

/-! ## The body, run whole, case by case

Each run gives, as lists of stored pieces (last first), what the body's stores leave in the output buffer and in the
running row, with the proof that from whole buffers the body runs to its return leaving exactly those. -/

set_option maxHeartbeats 4000000 in
/-- FIRST POINT: the running row, at anything, is cleared and then holds the block's column sums; the output buffer is
    handed back untouched. -/
noncomputable def kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i)
    (x0 : Vec F S5000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- MIDDLE POINTS: the running row, at what the point before left, gains the block's column sums; the output buffer is
    handed back untouched. -/
noncomputable def kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i)
    (x0 : Vec F S5000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- LAST POINT: the running row gains the block's column sums, and the output buffer receives the row times the
    constant. -/
noncomputable def kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i)
    (x0 : Vec F S5000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨?_, ?_, fun E K => ?run⟩
  case run =>
    simp only [cc2__mean_pool_kernel_eq_skeleton]; unfold cc2__mean_pool_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Fr

end
-- ==== Proof.IdealPoolRegion.lean ====
/-
  The pooling region of `KernelIdeal` as a pipeline over twenty blocks: what the running row and the output block hold
  after each point, the invariant that carries the running row from point to point, the proof data, and the obligation
  the pipeline asks of the body at every point.

  After point n the running row holds the column sums of blocks 0 … n (the first point starts it from a cleared row,
  every later point adds to what the point before left). The output block is stored at the last point only; at the
  other points its window is idle and its buffer is handed back as it was.
-/
import proofs.«134253_j70806830841996_1_alg».proof.Proof.IdealPoolRuns
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The input window's blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- FIRST POINT: nothing is stored into the output block (a placeholder nothing consults). -/
def out2_A_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) : Vec F S1x128 .f32 :=
  VO2_1.read (Elt F) (VO2_1.writes (Elt F) VO2_1.junk (kernelRun2_A c i arg1 harg1 arg2 harg2 arg3 harg3 hc0 hc1 x0).1)
/-- Its stores into the running row cover it. -/
theorem scover2_A_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) (y : S1x128.Idx) :
    ∃ pc ∈ (kernelRun2_A c i arg1 harg1 arg2 harg2 arg3 harg3 hc0 hc1 x0).2.1, y ∈ pc.1.set :=
  View.cover_of_tiledL (kernelRun2_A c i arg1 harg1 arg2 harg2 arg3 harg3 hc0 hc1 x0).2.1 S1x128.size (by sl_kernel_rfl) y
/-- The running row after the first point. -/
def sout2_A_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) : Vec F S1x128 .f32 :=
  VS2_0.read (Elt F) (VS2_0.writes (Elt F) VS2_0.junk (kernelRun2_A c i arg1 harg1 arg2 harg2 arg3 harg3 hc0 hc1 x0).2.1)

/-- MIDDLE POINTS: nothing is stored into the output block. -/
def out2_B_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) : Vec F S1x128 .f32 :=
  VO2_1.read (Elt F) (VO2_1.writes (Elt F) VO2_1.junk (kernelRun2_B c i arg1 harg1 arg2 harg2 arg3 harg3 hc0 hc1 x0 xs0).1)
theorem scover2_B_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) (y : S1x128.Idx) :
    ∃ pc ∈ (kernelRun2_B c i arg1 harg1 arg2 harg2 arg3 harg3 hc0 hc1 x0 xs0).2.1, y ∈ pc.1.set :=
  View.cover_of_tiledL (kernelRun2_B c i arg1 harg1 arg2 harg2 arg3 harg3 hc0 hc1 x0 xs0).2.1 S1x128.size (by sl_kernel_rfl) y
/-- The running row after a middle point, over what the point before left (`xs0`). -/
def sout2_B_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) : Vec F S1x128 .f32 :=
  VS2_0.read (Elt F) (VS2_0.writes (Elt F) VS2_0.junk (kernelRun2_B c i arg1 harg1 arg2 harg2 arg3 harg3 hc0 hc1 x0 xs0).2.1)

/-- LAST POINT: the one store into the output block covers it. -/
theorem cover2_C_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) (y : S1x128.Idx) :
    ∃ pc ∈ (kernelRun2_C c i arg1 harg1 arg2 harg2 arg3 harg3 hc0 hc1 x0 xs0).1, y ∈ pc.1.set :=
  View.cover_of_tiledL (kernelRun2_C c i arg1 harg1 arg2 harg2 arg3 harg3 hc0 hc1 x0 xs0).1 S1x128.size (by sl_kernel_rfl) y
/-- The output block after the last point. -/
def out2_C_1 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) : Vec F S1x128 .f32 :=
  VO2_1.read (Elt F) (VO2_1.writes (Elt F) VO2_1.junk (kernelRun2_C c i arg1 harg1 arg2 harg2 arg3 harg3 hc0 hc1 x0 xs0).1)
theorem scover2_C_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) (y : S1x128.Idx) :
    ∃ pc ∈ (kernelRun2_C c i arg1 harg1 arg2 harg2 arg3 harg3 hc0 hc1 x0 xs0).2.1, y ∈ pc.1.set :=
  View.cover_of_tiledL (kernelRun2_C c i arg1 harg1 arg2 harg2 arg3 harg3 hc0 hc1 x0 xs0).2.1 S1x128.size (by sl_kernel_rfl) y
/-- The running row after the last point. -/
def sout2_C_0 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) : Vec F S1x128 .f32 :=
  VS2_0.read (Elt F) (VS2_0.writes (Elt F) VS2_0.junk (kernelRun2_C c i arg1 harg1 arg2 harg2 arg3 harg3 hc0 hc1 x0 xs0).2.1)

/-! ## The accumulation, point by point -/

/-- What the output buffer and the running row hold after the body at position `n` (a pair: the output, the row): the
    case the position selects, run on the point's buffers and block, the row at what position `n - 1` left. -/
def outsAt2 (c : Dev nD) : (n : ℕ) → n < cfg2.N → Vec F S1x128 .f32 × Vec F S1x128 .f32
  | 0, hn =>
    (out2_A_1 c (grid2.coords ⟨0, hn⟩) (ms2_0 ⟨0, hn⟩) (hs2_0 ⟨0, hn⟩) (ms2_1 ⟨0, hn⟩) (hs2_1 ⟨0, hn⟩) scM2 (Memref.isWhole_whole _) ((hcond2_0 ⟨0, hn⟩).mpr rfl) (fun h => absurd ((hcond2_1 ⟨0, hn⟩).mp h) (show ¬((0 : ℕ) = 19) by decide)) (iblk2 V c 0 ⟨0, hn⟩),
     sout2_A_0 c (grid2.coords ⟨0, hn⟩) (ms2_0 ⟨0, hn⟩) (hs2_0 ⟨0, hn⟩) (ms2_1 ⟨0, hn⟩) (hs2_1 ⟨0, hn⟩) scM2 (Memref.isWhole_whole _) ((hcond2_0 ⟨0, hn⟩).mpr rfl) (fun h => absurd ((hcond2_1 ⟨0, hn⟩).mp h) (show ¬((0 : ℕ) = 19) by decide)) (iblk2 V c 0 ⟨0, hn⟩))
  | n + 1, hn =>
    if h1 : n + 1 = 19 then
      (out2_C_1 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (outsAt2 c n (Nat.lt_of_succ_lt hn)).2)
    else
      (out2_B_1 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (outsAt2 c n (Nat.lt_of_succ_lt hn)).2,
       sout2_B_0 c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (outsAt2 c n (Nat.lt_of_succ_lt hn)).2)

/-- At the first point: the first case's contents. -/
theorem outsAt2_A (c : Dev nD) (t : Fin cfg2.N) (h0 : t.val = 0) (h1 : ¬t.val = 19) :
    outsAt2 V c t.val t.isLt
      = (out2_A_1 c (grid2.coords t) (ms2_0 t) (hs2_0 t) (ms2_1 t) (hs2_1 t) scM2 (Memref.isWhole_whole _) ((hcond2_0 t).mpr h0) (fun h => h1 ((hcond2_1 t).mp h)) (iblk2 V c 0 t),
         sout2_A_0 c (grid2.coords t) (ms2_0 t) (hs2_0 t) (ms2_1 t) (hs2_1 t) scM2 (Memref.isWhole_whole _) ((hcond2_0 t).mpr h0) (fun h => h1 ((hcond2_1 t).mp h)) (iblk2 V c 0 t)) := by
  obtain ⟨n, hn⟩ := t
  cases n with
  | zero => rfl
  | succ n => exact absurd h0 (Nat.succ_ne_zero n)

/-- At a middle point: the middle case's contents, over what the point before left. -/
theorem outsAt2_B (c : Dev nD) (t : Fin cfg2.N) (h0 : ¬t.val = 0) (h1 : ¬t.val = 19) :
    outsAt2 V c t.val t.isLt
      = (out2_B_1 c (grid2.coords t) (ms2_0 t) (hs2_0 t) (ms2_1 t) (hs2_1 t) scM2 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2,
         sout2_B_0 c (grid2.coords t) (ms2_0 t) (hs2_0 t) (ms2_1 t) (hs2_1 t) scM2 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem outsAt2_C (c : Dev nD) (t : Fin cfg2.N) (h0 : ¬t.val = 0) (h1 : t.val = 19) :
    outsAt2 V c t.val t.isLt
      = (out2_C_1 c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2,
         sout2_C_0 c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The core's scoped buffers that are neither a staging buffer of this region nor its running row, at anything. -/
abbrev restBut (c : Dev nD) : sProp 𝕄 :=
  Pipeline.scopedRestBut (Ix := Unit) (Name := ℕ) (U := UR sig nD τ) (Lvl := ℕ) (Val := Elt F) spec2 c [cc2_scratch0]

/-- The class's invariant with the running row split out of the scoped rest. -/
theorem PhiA2_eq (c : Dev nD) :
    (Pipeline.ΦA spec2 c : sProp 𝕄)
      = iprop(iprop((∃ d, owns (c : Thread nD τ) scM2 fullShare d) ∗ restBut c) ∗ (∃ r, prngReg c r)) := by
  unfold Pipeline.ΦA restBut
  rw [Pipeline.scopedRest_split_of_list spec2 c [cc2_scratch0] (by decide) (by decide)]
  simp only [scM2, owns_whole]
  try rfl

/-- The invariant before position `n`: before the first point every scoped buffer no window stages is at anything;
    afterwards the running row holds what the point before left. -/
def PhiS (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM2 fullShare ((outsAt2 V c n hn).2) ∗ restBut c) ∗ (∃ r, prngReg c r)) := rfl
theorem PhiS_pos (c : Dev nD) (n : ℕ) (h : n ≤ cfg2.N) (hz : n ≠ 0) :
    PhiS V c n h = iprop(iprop(owns (c : Thread nD τ) scM2 fullShare ((outsAt2 V c (n - 1) (by omega)).2) ∗ restBut c) ∗ (∃ r, prngReg c r)) := by
  cases n with
  | zero => exact absurd rfl hz
  | succ n => rfl

/-! ## The proof data -/

/-- The region's proof data on core `c`: the arrays as the region finds them; after the body at point `t` the input's
    buffer at its block and the output's at the accumulation's first component; the invariant above; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point: the input's buffer holds its block; the position says which case the point is in; the
    invariant hands the body the running row at what the point before left (at anything at the first point) and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS V c (t.val + 1) t.isLt from rfl, PhiS_succ]
  have hN : t.val < 20 := lt_of_lt_of_eq t.isLt (show cfg2.N = 20 from N_2)
  by_cases h0 : t.val = 0
  · have h1 : ¬t.val = 19 := by omega
    rw [show (dat2 V c).leavesExact 0 t = owns (c : Thread nD τ) (ms2_0 t) fullShare ((dat2 V c).after 0 t) from by
      unfold Dat.leavesExact; rw [liveAt2_0 t], after2_0]
    rw [Dat.leavesExact_idle (dat2 V c) 1 t (idleAt2_1_A t ((hcond2_0 t).mpr h0) (fun h => h1 ((hcond2_1 t).mp h))) (noFlush2_1_A t ((hcond2_0 t).mpr h0) (fun h => h1 ((hcond2_1 t).mp h)))]
    rw [outsAt2_A V c t h0 h1]
    unfold sout2_A_0; (try dsimp only)
    rw [PhiS_castSucc V c t, PhiS_zero V c _ _ h0, PhiA2_eq]
    iintro ⟨⟨⟨HS0, HR⟩, Hg⟩, Ho, ⟨%d0, H0⟩, ⟨%d1, H1⟩⟩
    iapply ((kernelRun2_A c (grid2.coords t) _ _ _ _ _ _ ((hcond2_0 t).mpr h0) (fun h => h1 ((hcond2_1 t).mp h)) (iblk2 V c 0 t)).2.2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _)
        iexact HR
      iexact Hg
    isplitl [Ho]; · iexact Ho
    isplitl [H0]; · iexact H0
    iexists _; iexact H1
  · by_cases h1 : t.val = 19
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1_C t (fun h => h0 ((hcond2_0 t).mp h)) ((hcond2_1 t).mpr h1)], after2_1]
      rw [outsAt2_C V c t h0 h1]
      unfold out2_C_1 sout2_C_0; (try dsimp only)
      rw [PhiS_castSucc V c t, PhiS_pos V c _ _ h0]
      iintro ⟨⟨⟨HS0, HR⟩, Hg⟩, Ho, ⟨%d0, H0⟩, ⟨%d1, H1⟩⟩
      iapply ((kernelRun2_C c (grid2.coords t) _ _ _ _ _ _ (fun h => h0 ((hcond2_0 t).mp h)) ((hcond2_1 t).mpr h1) (iblk2 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover2_C_1 c _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [Dat.leavesExact_idle (dat2 V c) 1 t (idleAt2_1_B t (fun h => h0 ((hcond2_0 t).mp h)) (fun h => h1 ((hcond2_1 t).mp h))) (noFlush2_1_B t (fun h => h0 ((hcond2_0 t).mp h)) (fun h => h1 ((hcond2_1 t).mp h)))]
      rw [outsAt2_B V c t h0 h1]
      unfold sout2_B_0; (try dsimp only)
      rw [PhiS_castSucc V c t, PhiS_pos V c _ _ h0]
      iintro ⟨⟨⟨HS0, HR⟩, Hg⟩, Ho, ⟨%d0, H0⟩, ⟨%d1, H1⟩⟩
      iapply ((kernelRun2_B c (grid2.coords t) _ _ _ _ _ _ (fun h => h0 ((hcond2_0 t).mp h)) (fun h => h1 ((hcond2_1 t).mp h)) (iblk2 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _)
          iexact HR
        iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the class's. -/
theorem Phi_in2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class's back: what the running row holds is forgotten. -/
theorem Phi_out2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 20 := N_2; omega), PhiA2_eq]
  iintro ⟨⟨HS0, HR⟩, Hg⟩
  isplitl [HS0 HR]
  · isplitl [HS0]
    · iexists _; iexact HS0
    iexact HR
  iexact Hg

end Cert.KernelIdeal.Fr

end
-- ==== Proof.IdealRun.lean ====
/-
  `KernelIdeal`'s @main from the launch to the return, as ten segments: three stretches of host operations, the first dense
  layer's region, three more stretches, the second layer's region, the pooling region, and a last reshape.

  The buffer contents at each boundary are a fold from the launch memory: a stretch applies its operations; a region
  leaves its arrays at what its write-backs leave and every other buffer as it found it. The run below says every
  weakly fair execution of @main terminates with every unscoped buffer at the last boundary's contents — from which
  both the frame (no argument array is ever written) and the result's value are read.
-/
import proofs.«134253_j70806830841996_1_alg».proof.Proof.IdealDenseRegions
import proofs.«134253_j70806830841996_1_alg».proof.Proof.IdealPoolRegion
import proofs.«134253_j70806830841996_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (an input as entered, the output with every
    write-back folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- Region 1's entry. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b

/-- At region 1's exit: its arrays at what the pipeline leaves (an input as entered, the output with every
    write-back folded in), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- At region 2's exit: its arrays at what the pipeline leaves (an input as entered, the output with every
    write-back folded in), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last reshape: the return. -/
abbrev W10 : Dev nD → Valuation τ sig (Elt F) := fun c => StableHlo.after hostOps3 (W9 m ρ c)

/-! ## No segment writes an argument array -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W6_of (c : Dev nD) (r : Ref sig .tc) (h : r ∉ hostOps1_1_W) : W6 m ρ c r = W5 m ρ c r :=
  StableHlo.after_of_writes_sub hostOps1_1 _ hostOps1_1_writes h
theorem W7_of (c : Dev nD) (r : Ref sig .tc) (h : r ∉ hostOps1_2_W) : W7 m ρ c r = W6 m ρ c r :=
  StableHlo.after_of_writes_sub hostOps1_2 _ hostOps1_2_writes h
theorem W10_of (c : Dev nD) (r : Ref sig .tc) (h : r ∉ hostOps3_W) : W10 m ρ c r = W9 m ρ c r :=
  StableHlo.after_of_writes_sub hostOps3 _ hostOps3_writes h

/-- The node features reach the end as launched: no stretch writes them, and the one region that stages them reads
    them through an input window. -/
theorem W10_main_arg0 (c : Dev nD) : W10 m ρ c (Proc.devRef .tc main_arg0) = m ((c : Thread nD τ).loc main_arg0) :=
  (W10_of m ρ c main_arg0 (by decide)).trans <| (W9_of_ne m ρ c main_arg0 (by decide)).trans <| (W8_of_ne m ρ c main_arg0 (by decide)).trans <|
  (W7_of m ρ c main_arg0 (by decide)).trans <| (W6_of m ρ c main_arg0 (by decide)).trans <| (W5_of m ρ c main_arg0 (by decide)).trans <|
  ((W4_arr m ρ c 0).trans (((dat0 (V3 m ρ) c).arrAt_in 0 rfl _).trans (A_eq0 (V3 m ρ) c 0))).trans <|
  (W3_of m ρ c main_arg0 (by decide)).trans <| (W2_of m ρ c main_arg0 (by decide)).trans <| (W1_of m ρ c main_arg0 (by decide)).trans rfl
/-- Argument 1 reaches the end as launched: no stretch writes it and no region stages it. -/
theorem W10_main_arg1 (c : Dev nD) : W10 m ρ c (Proc.devRef .tc main_arg1) = m ((c : Thread nD τ).loc main_arg1) :=
  (W10_of m ρ c main_arg1 (by decide)).trans <| (W9_of_ne m ρ c main_arg1 (by decide)).trans <| (W8_of_ne m ρ c main_arg1 (by decide)).trans <|
  (W7_of m ρ c main_arg1 (by decide)).trans <| (W6_of m ρ c main_arg1 (by decide)).trans <| (W5_of m ρ c main_arg1 (by decide)).trans <|
  (W4_of_ne m ρ c main_arg1 (by decide)).trans <|
  (W3_of m ρ c main_arg1 (by decide)).trans <| (W2_of m ρ c main_arg1 (by decide)).trans <| (W1_of m ρ c main_arg1 (by decide)).trans rfl
/-- Argument 2 reaches the end as launched: no stretch writes it and no region stages it. -/
theorem W10_main_arg2 (c : Dev nD) : W10 m ρ c (Proc.devRef .tc main_arg2) = m ((c : Thread nD τ).loc main_arg2) :=
  (W10_of m ρ c main_arg2 (by decide)).trans <| (W9_of_ne m ρ c main_arg2 (by decide)).trans <| (W8_of_ne m ρ c main_arg2 (by decide)).trans <|
  (W7_of m ρ c main_arg2 (by decide)).trans <| (W6_of m ρ c main_arg2 (by decide)).trans <| (W5_of m ρ c main_arg2 (by decide)).trans <|
  (W4_of_ne m ρ c main_arg2 (by decide)).trans <|
  (W3_of m ρ c main_arg2 (by decide)).trans <| (W2_of m ρ c main_arg2 (by decide)).trans <| (W1_of m ρ c main_arg2 (by decide)).trans rfl
/-- Argument 3 reaches the end as launched: no stretch writes it and no region stages it. -/
theorem W10_main_arg3 (c : Dev nD) : W10 m ρ c (Proc.devRef .tc main_arg3) = m ((c : Thread nD τ).loc main_arg3) :=
  (W10_of m ρ c main_arg3 (by decide)).trans <| (W9_of_ne m ρ c main_arg3 (by decide)).trans <| (W8_of_ne m ρ c main_arg3 (by decide)).trans <|
  (W7_of m ρ c main_arg3 (by decide)).trans <| (W6_of m ρ c main_arg3 (by decide)).trans <| (W5_of m ρ c main_arg3 (by decide)).trans <|
  (W4_of_ne m ρ c main_arg3 (by decide)).trans <|
  (W3_of m ρ c main_arg3 (by decide)).trans <| (W2_of m ρ c main_arg3 (by decide)).trans <| (W1_of m ρ c main_arg3 (by decide)).trans rfl
/-- Argument 4 reaches the end as launched: no stretch writes it and no region stages it. -/
theorem W10_main_arg4 (c : Dev nD) : W10 m ρ c (Proc.devRef .tc main_arg4) = m ((c : Thread nD τ).loc main_arg4) :=
  (W10_of m ρ c main_arg4 (by decide)).trans <| (W9_of_ne m ρ c main_arg4 (by decide)).trans <| (W8_of_ne m ρ c main_arg4 (by decide)).trans <|
  (W7_of m ρ c main_arg4 (by decide)).trans <| (W6_of m ρ c main_arg4 (by decide)).trans <| (W5_of m ρ c main_arg4 (by decide)).trans <|
  (W4_of_ne m ρ c main_arg4 (by decide)).trans <|
  (W3_of m ρ c main_arg4 (by decide)).trans <| (W2_of m ρ c main_arg4 (by decide)).trans <| (W1_of m ρ c main_arg4 (by decide)).trans rfl
/-- Argument 5 reaches the end as launched: no stretch writes it and no region stages it. -/
theorem W10_main_arg5 (c : Dev nD) : W10 m ρ c (Proc.devRef .tc main_arg5) = m ((c : Thread nD τ).loc main_arg5) :=
  (W10_of m ρ c main_arg5 (by decide)).trans <| (W9_of_ne m ρ c main_arg5 (by decide)).trans <| (W8_of_ne m ρ c main_arg5 (by decide)).trans <|
  (W7_of m ρ c main_arg5 (by decide)).trans <| (W6_of m ρ c main_arg5 (by decide)).trans <| (W5_of m ρ c main_arg5 (by decide)).trans <|
  (W4_of_ne m ρ c main_arg5 (by decide)).trans <|
  (W3_of m ρ c main_arg5 (by decide)).trans <| (W2_of m ρ c main_arg5 (by decide)).trans <| (W1_of m ρ c main_arg5 (by decide)).trans rfl
/-- Argument 6 reaches the end as launched: no stretch writes it and no region stages it. -/
theorem W10_main_arg6 (c : Dev nD) : W10 m ρ c (Proc.devRef .tc main_arg6) = m ((c : Thread nD τ).loc main_arg6) :=
  (W10_of m ρ c main_arg6 (by decide)).trans <| (W9_of_ne m ρ c main_arg6 (by decide)).trans <| (W8_of_ne m ρ c main_arg6 (by decide)).trans <|
  (W7_of m ρ c main_arg6 (by decide)).trans <| (W6_of m ρ c main_arg6 (by decide)).trans <| (W5_of m ρ c main_arg6 (by decide)).trans <|
  (W4_of_ne m ρ c main_arg6 (by decide)).trans <|
  (W3_of m ρ c main_arg6 (by decide)).trans <| (W2_of m ρ c main_arg6 (by decide)).trans <| (W1_of m ρ c main_arg6 (by decide)).trans rfl
/-- Argument 7 reaches the end as launched: no stretch writes it and no region stages it. -/
theorem W10_main_arg7 (c : Dev nD) : W10 m ρ c (Proc.devRef .tc main_arg7) = m ((c : Thread nD τ).loc main_arg7) :=
  (W10_of m ρ c main_arg7 (by decide)).trans <| (W9_of_ne m ρ c main_arg7 (by decide)).trans <| (W8_of_ne m ρ c main_arg7 (by decide)).trans <|
  (W7_of m ρ c main_arg7 (by decide)).trans <| (W6_of m ρ c main_arg7 (by decide)).trans <| (W5_of m ρ c main_arg7 (by decide)).trans <|
  (W4_of_ne m ρ c main_arg7 (by decide)).trans <|
  (W3_of m ρ c main_arg7 (by decide)).trans <| (W2_of m ρ c main_arg7 (by decide)).trans <| (W1_of m ρ c main_arg7 (by decide)).trans rfl
/-- Argument 8 reaches the end as launched: no stretch writes it and no region stages it. -/
theorem W10_main_arg8 (c : Dev nD) : W10 m ρ c (Proc.devRef .tc main_arg8) = m ((c : Thread nD τ).loc main_arg8) :=
  (W10_of m ρ c main_arg8 (by decide)).trans <| (W9_of_ne m ρ c main_arg8 (by decide)).trans <| (W8_of_ne m ρ c main_arg8 (by decide)).trans <|
  (W7_of m ρ c main_arg8 (by decide)).trans <| (W6_of m ρ c main_arg8 (by decide)).trans <| (W5_of m ρ c main_arg8 (by decide)).trans <|
  (W4_of_ne m ρ c main_arg8 (by decide)).trans <|
  (W3_of m ρ c main_arg8 (by decide)).trans <| (W2_of m ρ c main_arg8 (by decide)).trans <| (W1_of m ρ c main_arg8 (by decide)).trans rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W3`, left with them at `W4`. Its
    arrays are split out of the unscoped buffers on entry and put back at what the write-backs leave on exit; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W7`, left with them at `W8`. Its
    arrays are split out of the unscoped buffers on entry and put back at what the write-backs leave on exit; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W8`, left with them at `W9`. Its
    arrays are split out of the unscoped buffers on entry and put back at what the write-backs leave on exit; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 2).pre c (fun _ => fullShare) (adm 2).1 ∗ Pipeline.scopedRest (Pipeline.pin (pcfgs (F := F)) adm 2).spec c) ⊢ (Pipeline.ΦA spec2 c : sProp 𝕄) from by
      unfold Pipeline.ΦA
      iintro ⟨Hp, -, Hr⟩
      isplitl [Hr]; · iexact Hr
      iexact Hp).trans (Phi_in2 (V8 m ρ) c)
  hout c := (Phi_out2 (V8 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .region (reg2 m ρ),
    .host (hseg hostOps3 hostOps3_sub hostOps3_fresh (W9 m ρ)) ]

set_option backward.isDefEq.respectTransparency.types false in
/-- THE RUN: from any memory with zero counters every weakly fair execution of @main terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2,
          Prog.lift (.customCall (Pipeline.entry 0) ()),
          StableHlo.seq hostOps1, StableHlo.seq hostOps1_1, StableHlo.seq hostOps1_2,
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun c =>
        (show iprop(StableHlo.held (c : Thread nD τ) (Pipeline.ucRefs τ sig) (W10 m ρ c) ∗ iprop((∃ r, prngReg c r) ∗ ∃ W, owes (c : Thread nD τ) (0 : CellTallies nD τ sig Unit) W))
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c)⟩) (run_all m ρ)

end Cert.KernelIdeal.Fr

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibDenseRelu.lean ====
/-
  Dense layers followed by a rectifier, read at coordinates over the extended reals.

  Two layers are named. `affineRelu X W b` is the matrix whose entry (a, q) is
  `max (∑ k, X (a, k) · W (k, q) + b (0, q)) 0`: a matrix product with a bias row added and the rectifier applied.
  `pairRelu A Wa Hm Wh b` has the entry `max ((∑ k, A (a, k) · Wa (k, q) + ∑ k, Hm (a, k) · Wh (k, q)) + b (0, q)) 0`:
  two products added, then the bias row, then the rectifier.

  Each layer is met in two spellings. The accumulating spelling multiplies into a zero accumulator, stretches the
  one-row bias down the rows, and takes the maximum with a splat of zero; the host spelling uses the plain product,
  stretches the one-row bias by a dimension map, and takes the maximum with a scalar zero stretched to the whole shape.
  The host spelling of the second layer adds in another order, `(A·Wa + b) + Hm·Wh`; addition on the extended reals is
  commutative and associative (the infinities included), so both orders give one number. Rows of a product depend only on
  the same rows of the left operand, which is what lets a row block of the result be computed from the row block of the
  left operand: `affineReluAt` and `pairReluAt` take the row as a coordinate so that this is visible in their statements.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«134253_j70806830841996_1_alg».proof.Proof.LibColumnBlocks
import proofs.«134253_j70806830841996_1_alg».proof.Proof.LibCastForms

noncomputable section

namespace Cert.LibDenseRelu

open Idealize.ShloMosaic Idealize.ShloMosaic.ValueIdx

/-! ## The two layers -/

section Defs
variable {N K H : ℕ}

/-- Entry (a, q) of `relu (X · W + b)`. -/
def affineReluAt (X : (⟨2, ![N, K]⟩ : Shape).Idx → EReal) (W : (⟨2, ![K, H]⟩ : Shape).Idx → EReal)
    (b : (⟨2, ![1, H]⟩ : Shape).Idx → EReal) (a : Fin N) (q : Fin H) : EReal :=
  max ((∑ k : Fin K, X (ix2 a k) * W (ix2 k q)) + b (ix2 (0 : Fin 1) q)) 0

/-- `relu (X · W + b)` as a matrix. -/
def affineRelu (X : (⟨2, ![N, K]⟩ : Shape).Idx → EReal) (W : (⟨2, ![K, H]⟩ : Shape).Idx → EReal)
    (b : (⟨2, ![1, H]⟩ : Shape).Idx → EReal) : (⟨2, ![N, H]⟩ : Shape).Idx → EReal :=
  fun j => affineReluAt X W b (j 0) (j 1)

theorem affineRelu_ix2 (X : (⟨2, ![N, K]⟩ : Shape).Idx → EReal) (W : (⟨2, ![K, H]⟩ : Shape).Idx → EReal)
    (b : (⟨2, ![1, H]⟩ : Shape).Idx → EReal) (a : Fin N) (q : Fin H) :
    affineRelu X W b (ix2 a q) = affineReluAt X W b a q := rfl

/-- Entry (a, q) of `relu ((A · Wa + Hm · Wh) + b)`. -/
def pairReluAt (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) : EReal :=
  max (((∑ k : Fin K, A (ix2 a k) * Wa (ix2 k q)) + (∑ k : Fin K, Hm (ix2 a k) * Wh (ix2 k q))) + b (ix2 (0 : Fin 1) q)) 0

/-- `relu ((A · Wa + Hm · Wh) + b)` as a matrix. -/
def pairRelu (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) : (⟨2, ![N, H]⟩ : Shape).Idx → EReal :=
  fun j => pairReluAt A Wa Hm Wh b (j 0) (j 1)

theorem pairRelu_ix2 (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) :
    pairRelu A Wa Hm Wh b (ix2 a q) = pairReluAt A Wa Hm Wh b a q := rfl

/-- An entry of `affineRelu` depends on one row of the left operand: two left operands that agree on a row give
    the same entry there. -/
theorem affineReluAt_congr_row {N' : ℕ} (X : (⟨2, ![N, K]⟩ : Shape).Idx → EReal) (X' : (⟨2, ![N', K]⟩ : Shape).Idx → EReal)
    (W : (⟨2, ![K, H]⟩ : Shape).Idx → EReal) (b : (⟨2, ![1, H]⟩ : Shape).Idx → EReal) (a : Fin N) (a' : Fin N') (q q' : Fin H)
    (hX : ∀ k : Fin K, X (ix2 a k) = X' (ix2 a' k)) (hq : q.val = q'.val) :
    affineReluAt X W b a q = affineReluAt X' W b a' q' := by
  obtain rfl : q = q' := Fin.ext hq
  unfold affineReluAt
  simp only [hX]

/-- An entry of `pairRelu` depends on one row of each left operand. -/
theorem pairReluAt_congr_row {N' : ℕ} (A : (⟨2, ![N, K]⟩ : Shape).Idx → EReal) (A' : (⟨2, ![N', K]⟩ : Shape).Idx → EReal)
    (Wa : (⟨2, ![K, H]⟩ : Shape).Idx → EReal) (Hm : (⟨2, ![N, K]⟩ : Shape).Idx → EReal) (Hm' : (⟨2, ![N', K]⟩ : Shape).Idx → EReal)
    (Wh : (⟨2, ![K, H]⟩ : Shape).Idx → EReal) (b : (⟨2, ![1, H]⟩ : Shape).Idx → EReal) (a : Fin N) (a' : Fin N') (q q' : Fin H)
    (hA : ∀ k : Fin K, A (ix2 a k) = A' (ix2 a' k)) (hH : ∀ k : Fin K, Hm (ix2 a k) = Hm' (ix2 a' k)) (hq : q.val = q'.val) :
    pairReluAt A Wa Hm Wh b a q = pairReluAt A' Wa Hm' Wh b a' q' := by
  obtain rfl : q = q' := Fin.ext hq
  unfold pairReluAt
  simp only [hA, hH]

end Defs

/-! ## The accumulating spelling: a product into a zero accumulator, the bias row stretched, a splat of zero -/

section Tile
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- One product, the bias row, the rectifier. -/
theorem tile_affineRelu (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (matmul d prec x w (constant ⟨2, ![A, B]⟩ .f32 0x00000000#32)) (broadcastTo ⟨2, ![A, B]⟩ b hb))
        (broadcast ⟨2, ![A, B]⟩ (Scalar.ofBits .f32 0x00000000#32)) (ix2 p q)
      = affineReluAt x w b p q := by
  rw [maximumf_apply, addf_apply, LibColumnBlocks.matmul_zero_apply d hr hs hlc hrc hl0 hr1 x w p q prec,
    broadcastTo_1b_ab_apply b hb p q, broadcast_apply]
  show max _ (Ideal.ofBits .f32 0x00000000#32) = _
  rw [Ideal.ofBits_zero_f32]
  rfl

include hr hs hlc hrc hl0 hr1 in
/-- Two products added, then the bias row, then the rectifier. -/
theorem tile_pairRelu (prec : Option ContractPrecision) (xa : FVec Ideal ⟨2, ![A, K]⟩ φ₁) (wa : FVec Ideal ⟨2, ![K, B]⟩ φ₂)
    (xh : FVec Ideal ⟨2, ![A, K]⟩ φ₁) (wh : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (addf (matmul d prec xa wa (constant ⟨2, ![A, B]⟩ .f32 0x00000000#32))
          (matmul d prec xh wh (constant ⟨2, ![A, B]⟩ .f32 0x00000000#32))) (broadcastTo ⟨2, ![A, B]⟩ b hb))
        (broadcast ⟨2, ![A, B]⟩ (Scalar.ofBits .f32 0x00000000#32)) (ix2 p q)
      = pairReluAt xa wa xh wh b p q := by
  rw [maximumf_apply, addf_apply, addf_apply, LibColumnBlocks.matmul_zero_apply d hr hs hlc hrc hl0 hr1 xa wa p q prec,
    LibColumnBlocks.matmul_zero_apply d hr hs hlc hrc hl0 hr1 xh wh p q prec, broadcastTo_1b_ab_apply b hb p q, broadcast_apply]
  show max _ (Ideal.ofBits .f32 0x00000000#32) = _
  rw [Ideal.ofBits_zero_f32]
  rfl

end Tile

/-! ## The host spelling: the plain product, the bias row stretched by a dimension map, a scalar zero stretched -/

section Host
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The host's `relu (X · W + b)`, as a whole matrix. -/
theorem host_affineRelu (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (Host.dotGeneral d prec x w) (broadcastInDim ⟨2, ![A, B]⟩ (![0, 1] : Fin 2 → Fin 2) hb b))
        (broadcastInDim ⟨2, ![A, B]⟩ ![] hz (constant (F := Ideal) ⟨0, ![]⟩ .f32 0x00000000#32))
      = affineRelu x w b := by
  funext j
  obtain ⟨p, q, rfl⟩ : ∃ (p : Fin A) (q : Fin B), j = ix2 p q := ⟨j 0, j 1, eq_ix2 j⟩
  rw [affineRelu_ix2, maximumf_apply, addf_apply, LibColumnBlocks.hostDot_apply d hr hs hlc hrc hl0 hr1 x w p q prec,
    LibCastForms.bcast_1b_ab_apply b hb p q, broadcastInDim_scalar_apply, constant_apply, Ideal.ofBits_zero_f32]
  rfl

include hr hs hlc hrc hl0 hr1 in
/-- The host's `relu ((A · Wa + b) + Hm · Wh)` is `pairRelu`: the three terms are added in another order. -/
theorem host_pairRelu (prec : Option ContractPrecision) (xa : FVec Ideal ⟨2, ![A, K]⟩ .f32) (wa : FVec Ideal ⟨2, ![K, B]⟩ .f32)
    (xh : FVec Ideal ⟨2, ![A, K]⟩ .f32) (wh : FVec Ideal ⟨2, ![K, B]⟩ .f32) (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (addf (Host.dotGeneral d prec xa wa) (broadcastInDim ⟨2, ![A, B]⟩ (![0, 1] : Fin 2 → Fin 2) hb b))
          (Host.dotGeneral d prec xh wh))
        (broadcastInDim ⟨2, ![A, B]⟩ ![] hz (constant (F := Ideal) ⟨0, ![]⟩ .f32 0x00000000#32))
      = pairRelu xa wa xh wh b := by
  funext j
  obtain ⟨p, q, rfl⟩ : ∃ (p : Fin A) (q : Fin B), j = ix2 p q := ⟨j 0, j 1, eq_ix2 j⟩
  rw [pairRelu_ix2, maximumf_apply, addf_apply, addf_apply, LibColumnBlocks.hostDot_apply d hr hs hlc hrc hl0 hr1 xa wa p q prec,
    LibColumnBlocks.hostDot_apply d hr hs hlc hrc hl0 hr1 xh wh p q prec,
    LibCastForms.bcast_1b_ab_apply b hb p q, broadcastInDim_scalar_apply, constant_apply, Ideal.ofBits_zero_f32]
  unfold pairReluAt
  rw [add_right_comm]

end Host

end Cert.LibDenseRelu

end
-- ==== Proof.Spec.lean ====
/-
  What the encoder computes, as one function of its nine arguments over the extended reals.

  A layer takes the node features h (one row per node) and the neighbour means of h, and gives, at node a and
  output column q, max ((sum_k h(a,k) Ws(q,k) + sum_k mean(a,k) Wn(q,k)) + b(q)) 0. The neighbour mean of a node is
  the sum of the rows of h at the sources of its incoming edges divided by the number of those edges (a node with none
  gets zero); both programs compute it with the same host operations (a gather of rows, a scatter-add by destination,
  a count, a guarded quotient), so it is kept here as that chain of operations, one named function per width, and is
  never opened: only that the two programs apply it to equal arrays matters. After two layers the result is, per
  column, the sum of the column over all 100000 nodes times 1/100000.
-/
import proofs.«134253_j70806830841996_1_alg».proof.KernelIdeal
import proofs.«134253_j70806830841996_1_alg».proof.Proof.LibDenseRelu

noncomputable section

namespace Cert.Spec

open Idealize.ShloMosaic Idealize.ShloMosaic.ValueIdx Cert.KernelIdeal Cert.LibDenseRelu

variable [Cert.KernelIdeal.Facts]
open Cert.KernelIdeal.Facts₀ Cert.KernelIdeal.Facts

/-- An edge list: one signed 32-bit node number per edge. -/
abbrev Edges : Type := (⟨S1600000, .i32⟩ : BufTy).Contents (Elt Ideal)

/-- The neighbour means of a 64-column feature array: the rows at the edges' sources (a negative source counted from the
    end) summed into the edges' destinations, divided by the destinations' edge counts (at least 1), zero where a node
    has no incoming edge. -/
def nbrMean64 (x : FVec Ideal S100000x64 .f32) (src dst : Edges) : FVec Ideal S100000x64 .f32 :=
  (select (broadcastInDim S100000x64 ![0, 1] bcast_S100000x1_S100000x64_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x64 ![] bcast_S_S100000x64 (id (constant (F := Ideal) S_ .f32 0x00000000#32))))

/-- The same for a 128-column feature array. -/
def nbrMean128 (h : FVec Ideal S100000x128 .f32) (src dst : Edges) : FVec Ideal S100000x128 .f32 :=
  (select (broadcastInDim S100000x128 ![0, 1] bcast_S100000x1_S100000x128_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x128 ![] bcast_S_S100000x128 (id (constant (F := Ideal) S_ .f32 0x00000000#32))))

/-- A bias vector as the one row of a matrix. -/
def biasRow (b : FVec Ideal S128 .f32) : FVec Ideal S1x128 .f32 := shapeCast S1x128 b shapeCasts_S128_S1x128

/-- A weight matrix [out, in] turned to [in, out]. -/
def turned64 (W : FVec Ideal S128x64 .f32) : FVec Ideal S64x128 .f32 := transpose S64x128 [1, 0] W transposes_S128x64_S64x128_1_0
def turned128 (W : FVec Ideal S128x128 .f32) : FVec Ideal S128x128 .f32 := transpose S128x128 [1, 0] W transposes_S128x128_S128x128_1_0

/-- The first layer: 64 input columns. -/
def layer1 (x : FVec Ideal S100000x64 .f32) (src dst : Edges) (Ws : FVec Ideal S128x64 .f32) (b : FVec Ideal S128 .f32)
    (Wn : FVec Ideal S128x64 .f32) : FVec Ideal S100000x128 .f32 :=
  pairRelu (N := 100000) (K := 64) (H := 128) x (turned64 Ws) (nbrMean64 x src dst) (turned64 Wn) (biasRow b)

/-- The second layer: 128 input columns. -/
def layer2 (h : FVec Ideal S100000x128 .f32) (src dst : Edges) (Ws : FVec Ideal S128x128 .f32) (b : FVec Ideal S128 .f32)
    (Wn : FVec Ideal S128x128 .f32) : FVec Ideal S100000x128 .f32 :=
  pairRelu (N := 100000) (K := 128) (H := 128) h (turned128 Ws) (nbrMean128 h src dst) (turned128 Wn) (biasRow b)

/-- Column q of the mean over all nodes: the column's sum times 1/100000. -/
def pooledAt (h : FVec Ideal S100000x128 .f32) (q : Fin 128) : EReal :=
  (∑ i : Fin 100000, h (ix2 i q)) * ((1 / 100000 : ℝ) : EReal)

/-- The mean over all nodes, one entry per column. -/
def pooled (h : FVec Ideal S100000x128 .f32) : FVec Ideal S128 .f32 := fun j => pooledAt h (j 0)

/-- The encoder: two layers, then the mean over the nodes. -/
def encoder (x : FVec Ideal S100000x64 .f32) (src dst : Edges) (Ws1 : FVec Ideal S128x64 .f32) (b1 : FVec Ideal S128 .f32)
    (Wn1 : FVec Ideal S128x64 .f32) (Ws2 : FVec Ideal S128x128 .f32) (b2 : FVec Ideal S128 .f32) (Wn2 : FVec Ideal S128x128 .f32) :
    FVec Ideal S128 .f32 :=
  pooled (layer2 (layer1 x src dst Ws1 b1 Wn1) src dst Ws2 b2 Wn2)

end Cert.Spec

end
-- ==== Proof.SpecParts.lean ====
/-
  The neighbour mean taken apart: "does the node have an incoming edge" and the guarded quotient, named separately so
  that each can be met on its own; the neighbour mean selects the quotient where the node has an incoming edge and zero
  elsewhere.
-/
import proofs.«134253_j70806830841996_1_alg».proof.Proof.Spec

noncomputable section

namespace Cert.Spec

open Idealize.ShloMosaic Idealize.ShloMosaic.ValueIdx Cert.KernelIdeal Cert.LibDenseRelu

variable [Cert.KernelIdeal.Facts]
open Cert.KernelIdeal.Facts₀ Cert.KernelIdeal.Facts

/-- Per node: 1 where the count of edges into it is positive. -/
def hasIncoming (dst : Edges) : IVec S100000x1 1 :=
  (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))

/-- The sums of source rows into destinations, divided by the destinations' edge counts (at least 1): 64 columns. -/
def meanQuot64 (x : FVec Ideal S100000x64 .f32) (src dst : Edges) : FVec Ideal S100000x64 .f32 :=
  (Host.divf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32))))))

/-- The same, 128 columns. -/
def meanQuot128 (h : FVec Ideal S100000x128 .f32) (src dst : Edges) : FVec Ideal S100000x128 .f32 :=
  (Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32))))))

/-- The scalar zero of the guard. -/
def zeroScalar : FVec Ideal S_ .f32 := constant (F := Ideal) S_ .f32 0x00000000#32

theorem nbrMean64_parts (x : FVec Ideal S100000x64 .f32) (src dst : Edges) :
    nbrMean64 x src dst
      = select (broadcastInDim S100000x64 ![0, 1] bcast_S100000x1_S100000x64_0_1 (hasIncoming dst)) (meanQuot64 x src dst)
          (broadcastInDim S100000x64 ![] bcast_S_S100000x64 (id zeroScalar)) := rfl

theorem nbrMean128_parts (h : FVec Ideal S100000x128 .f32) (src dst : Edges) :
    nbrMean128 h src dst
      = select (broadcastInDim S100000x128 ![0, 1] bcast_S100000x1_S100000x128_0_1 (hasIncoming dst)) (meanQuot128 h src dst)
          (broadcastInDim S100000x128 ![] bcast_S_S100000x128 (id zeroScalar)) := rfl

end Cert.Spec

end
-- ==== Proof.IdealHostNbr1.lean ====
/-
  The neighbour means before the first dense region, as the host operations leave them.

  Thirty plain operations compute, from the features, the sources and the destinations, the guarded quotient and the
  "has an incoming edge" mask; a four-operation call then selects the quotient under the mask and zero elsewhere. The two
  groups are read separately, each over an arbitrary starting valuation, and joined.
-/
import proofs.«134253_j70806830841996_1_alg».proof.Proof.Gen.KernelIdeal.Launch
import proofs.«134253_j70806830841996_1_alg».proof.Proof.SpecParts
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem

set_option maxHeartbeats 4000000 in
/-- The plain operations leave the guarded quotient, -/
theorem plain_quot64 (Wx : Valuation τ sig (Elt Ideal)) :
    StableHlo.after hostOps0 Wx (Proc.devRef .tc main_v21)
      = Cert.Spec.meanQuot64 (Wx (Proc.devRef .tc main_arg0)) (Wx (Proc.devRef .tc main_arg1)) (Wx (Proc.devRef .tc main_arg2)) := by
  simp only [hostOps0]
  after_results
  rfl

set_option maxHeartbeats 4000000 in
/-- the mask, -/
theorem plain_mask64 (Wx : Valuation τ sig (Elt Ideal)) :
    StableHlo.after hostOps0 Wx (Proc.devRef .tc main_v16) = Cert.Spec.hasIncoming (Wx (Proc.devRef .tc main_arg2)) := by
  simp only [hostOps0]
  after_results
  rfl

set_option maxHeartbeats 4000000 in
/-- and the scalar zero. -/
theorem plain_zero64 (Wx : Valuation τ sig (Elt Ideal)) :
    StableHlo.after hostOps0 Wx (Proc.devRef .tc main_cst_5) = Cert.Spec.zeroScalar := by
  simp only [hostOps0]
  after_results
  rfl

/-- The call selects its second argument under the mask and the scalar elsewhere. -/
theorem call_where64 (Wy : Valuation τ sig (Elt Ideal)) :
    StableHlo.after hostOps0_1 Wy (Proc.devRef .tc main_v22)
      = select (broadcastInDim S100000x64 ![0, 1] Facts₀.bcast_S100000x1_S100000x64_0_1 (Wy (Proc.devRef .tc main_v16)))
          (Wy (Proc.devRef .tc main_v21))
          (broadcastInDim S100000x64 ![] Facts₀.bcast_S_S100000x64 (id (Wy (Proc.devRef .tc main_cst_5)))) := by
  simp only [hostOps0_1]
  after_results
  rfl

/-- Together: the two stretches leave the neighbour means. -/
theorem stretch_nbr64 (Wx : Valuation τ sig (Elt Ideal)) :
    StableHlo.after hostOps0_1 (StableHlo.after hostOps0 Wx) (Proc.devRef .tc main_v22)
      = Cert.Spec.nbrMean64 (Wx (Proc.devRef .tc main_arg0)) (Wx (Proc.devRef .tc main_arg1)) (Wx (Proc.devRef .tc main_arg2)) := by
  rw [call_where64, plain_quot64, plain_mask64, plain_zero64, Cert.Spec.nbrMean64_parts]

end Cert.KernelIdeal.Val

end
-- ==== Proof.IdealHostNbr2.lean ====
/-
  The neighbour means before the second dense region, as the host operations leave them.

  Thirty plain operations compute, from the features, the sources and the destinations, the guarded quotient and the
  "has an incoming edge" mask; a four-operation call then selects the quotient under the mask and zero elsewhere. The two
  groups are read separately, each over an arbitrary starting valuation, and joined.
-/
import proofs.«134253_j70806830841996_1_alg».proof.Proof.Gen.KernelIdeal.Launch
import proofs.«134253_j70806830841996_1_alg».proof.Proof.SpecParts
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem

set_option maxHeartbeats 4000000 in
/-- The plain operations leave the guarded quotient, -/
theorem plain_quot128 (Wx : Valuation τ sig (Elt Ideal)) :
    StableHlo.after hostOps1 Wx (Proc.devRef .tc main_v48)
      = Cert.Spec.meanQuot128 (Wx (Proc.devRef .tc main_v26)) (Wx (Proc.devRef .tc main_arg1)) (Wx (Proc.devRef .tc main_arg2)) := by
  simp only [hostOps1]
  after_results
  rfl

set_option maxHeartbeats 4000000 in
/-- the mask, -/
theorem plain_mask128 (Wx : Valuation τ sig (Elt Ideal)) :
    StableHlo.after hostOps1 Wx (Proc.devRef .tc main_v43) = Cert.Spec.hasIncoming (Wx (Proc.devRef .tc main_arg2)) := by
  simp only [hostOps1]
  after_results
  rfl

set_option maxHeartbeats 4000000 in
/-- and the scalar zero. -/
theorem plain_zero128 (Wx : Valuation τ sig (Elt Ideal)) :
    StableHlo.after hostOps1 Wx (Proc.devRef .tc main_cst_13) = Cert.Spec.zeroScalar := by
  simp only [hostOps1]
  after_results
  rfl

/-- The call selects its second argument under the mask and the scalar elsewhere. -/
theorem call_where128 (Wy : Valuation τ sig (Elt Ideal)) :
    StableHlo.after hostOps1_1 Wy (Proc.devRef .tc main_v49)
      = select (broadcastInDim S100000x128 ![0, 1] Facts₀.bcast_S100000x1_S100000x128_0_1 (Wy (Proc.devRef .tc main_v43)))
          (Wy (Proc.devRef .tc main_v48))
          (broadcastInDim S100000x128 ![] Facts₀.bcast_S_S100000x128 (id (Wy (Proc.devRef .tc main_cst_13)))) := by
  simp only [hostOps1_1]
  after_results
  rfl

/-- Together: the two stretches leave the neighbour means. -/
theorem stretch_nbr128 (Wx : Valuation τ sig (Elt Ideal)) :
    StableHlo.after hostOps1_1 (StableHlo.after hostOps1 Wx) (Proc.devRef .tc main_v49)
      = Cert.Spec.nbrMean128 (Wx (Proc.devRef .tc main_v26)) (Wx (Proc.devRef .tc main_arg1)) (Wx (Proc.devRef .tc main_arg2)) := by
  rw [call_where128, plain_quot128, plain_mask128, plain_zero128, Cert.Spec.nbrMean128_parts]

end Cert.KernelIdeal.Val

end
-- ==== Proof.IdealHostReads.lean ====
/-
  What the host operations before each dense region leave in the region's input arrays, at the ideal instance.

  Before the first layer's region the stretches compute the neighbour means of the node features, turn the two weight
  matrices and lay the bias out as a row; before the second layer's region they do the same from the first layer's
  output. Each stretch is opened once, over an arbitrary starting valuation; the argument arrays it reads are then
  walked back to the launch memory, since no earlier segment writes them.
-/
import proofs.«134253_j70806830841996_1_alg».proof.Proof.IdealRun
import proofs.«134253_j70806830841996_1_alg».proof.Proof.IdealHostNbr1
import proofs.«134253_j70806830841996_1_alg».proof.Proof.IdealHostNbr2
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The stretches, opened once each -/

/-- The third stretch turns the two weight matrices and lays the bias out as a row. -/
theorem stretch_w1 (Wx : Valuation τ sig (Elt Ideal)) :
    StableHlo.after hostOps0_2 Wx (Proc.devRef .tc main_v23) = Cert.Spec.turned64 (Wx (Proc.devRef .tc main_arg3))
    ∧ StableHlo.after hostOps0_2 Wx (Proc.devRef .tc main_v24) = Cert.Spec.turned64 (Wx (Proc.devRef .tc main_arg5))
    ∧ StableHlo.after hostOps0_2 Wx (Proc.devRef .tc main_v25) = Cert.Spec.biasRow (Wx (Proc.devRef .tc main_arg4)) := by
  refine ⟨?_, ?_, ?_⟩ <;> (simp only [hostOps0_2]; after_results; rfl)

/-- The turned weights and the bias row before the second layer. -/
theorem stretch_w2 (Wx : Valuation τ sig (Elt Ideal)) :
    StableHlo.after hostOps1_2 Wx (Proc.devRef .tc main_v50) = Cert.Spec.turned128 (Wx (Proc.devRef .tc main_arg6))
    ∧ StableHlo.after hostOps1_2 Wx (Proc.devRef .tc main_v51) = Cert.Spec.turned128 (Wx (Proc.devRef .tc main_arg8))
    ∧ StableHlo.after hostOps1_2 Wx (Proc.devRef .tc main_v52) = Cert.Spec.biasRow (Wx (Proc.devRef .tc main_arg7)) := by
  refine ⟨?_, ?_, ?_⟩ <;> (simp only [hostOps1_2]; after_results; rfl)

/-- The last stretch recasts the [1, 128] output as a vector. -/
theorem stretch_out (Wx : Valuation τ sig (Elt Ideal)) :
    StableHlo.after hostOps3 Wx (Proc.devRef .tc main_v55) = shapeCast S128 (Wx (Proc.devRef .tc main_v54)) shapeCasts_S1x128_S128 := by
  simp only [hostOps3]; after_results; rfl

/-! ## The argument arrays at each region's entry are the launch contents -/

theorem W2_arg (c : Dev nD) (r : Ref sig .tc) (h0 : r ∉ hostOps0_W) (h1 : r ∉ hostOps0_1_W) :
    W2 m ρ c r = m ((c : Thread nD τ).loc r) :=
  (W2_of m ρ c r h1).trans ((W1_of m ρ c r h0).trans rfl)
theorem W3_arg (c : Dev nD) (r : Ref sig .tc) (h0 : r ∉ hostOps0_W) (h1 : r ∉ hostOps0_1_W) (h2 : r ∉ hostOps0_2_W) :
    W3 m ρ c r = m ((c : Thread nD τ).loc r) :=
  (W3_of m ρ c r h2).trans (W2_arg m ρ c r h0 h1)
theorem W4_arg (c : Dev nD) (r : Ref sig .tc) (hw : ∀ w, Pipeline.arrRef spec0 w ≠ r) (h0 : r ∉ hostOps0_W) (h1 : r ∉ hostOps0_1_W) (h2 : r ∉ hostOps0_2_W) :
    W4 m ρ c (Proc.devRef .tc r) = m ((c : Thread nD τ).loc r) :=
  (W4_of_ne m ρ c r hw).trans (W3_arg m ρ c r h0 h1 h2)
theorem W6_of_W4 (c : Dev nD) (r : Ref sig .tc) (h0 : r ∉ hostOps1_W) (h1 : r ∉ hostOps1_1_W) :
    W6 m ρ c r = W4 m ρ c r :=
  (W6_of m ρ c r h1).trans (W5_of m ρ c r h0)

/-! ## The first layer's inputs -/

theorem in1_feat (c : Dev nD) : V3 m ρ c main_arg0 = (m ((c : Thread nD τ).loc main_arg0)) := W3_arg m ρ c main_arg0 (by decide) (by decide) (by decide)
theorem in1_nbr (c : Dev nD) : V3 m ρ c main_v22 = Cert.Spec.nbrMean64 (m ((c : Thread nD τ).loc main_arg0)) (m ((c : Thread nD τ).loc main_arg1)) (m ((c : Thread nD τ).loc main_arg2)) :=
  (W3_of m ρ c main_v22 (by decide)).trans (stretch_nbr64 (W0 m ρ c))
theorem in1_ws (c : Dev nD) : V3 m ρ c main_v23 = Cert.Spec.turned64 (m ((c : Thread nD τ).loc main_arg3)) :=
  ((stretch_w1 (W2 m ρ c)).1).trans (congrArg Cert.Spec.turned64 (W2_arg m ρ c main_arg3 (by decide) (by decide)))
theorem in1_wn (c : Dev nD) : V3 m ρ c main_v24 = Cert.Spec.turned64 (m ((c : Thread nD τ).loc main_arg5)) :=
  ((stretch_w1 (W2 m ρ c)).2.1).trans (congrArg Cert.Spec.turned64 (W2_arg m ρ c main_arg5 (by decide) (by decide)))
theorem in1_b (c : Dev nD) : V3 m ρ c main_v25 = Cert.Spec.biasRow (m ((c : Thread nD τ).loc main_arg4)) :=
  ((stretch_w1 (W2 m ρ c)).2.2).trans (congrArg Cert.Spec.biasRow (W2_arg m ρ c main_arg4 (by decide) (by decide)))

/-! ## The second layer's inputs, from the first layer's output `W4 … main_v26` -/

theorem in2_h (c : Dev nD) : V7 m ρ c main_v26 = W4 m ρ c (Proc.devRef .tc main_v26) :=
  (W7_of m ρ c main_v26 (by decide)).trans (W6_of_W4 m ρ c main_v26 (by decide) (by decide))
theorem in2_nbr (c : Dev nD) : V7 m ρ c main_v49
    = Cert.Spec.nbrMean128 (W4 m ρ c (Proc.devRef .tc main_v26)) (m ((c : Thread nD τ).loc main_arg1)) (m ((c : Thread nD τ).loc main_arg2)) := by
  refine ((W7_of m ρ c main_v49 (by decide)).trans (stretch_nbr128 (W4 m ρ c))).trans ?_
  rw [W4_arg m ρ c main_arg1 (by decide) (by decide) (by decide) (by decide), W4_arg m ρ c main_arg2 (by decide) (by decide) (by decide) (by decide)]
theorem in2_ws (c : Dev nD) : V7 m ρ c main_v50 = Cert.Spec.turned128 (m ((c : Thread nD τ).loc main_arg6)) :=
  ((stretch_w2 (W6 m ρ c)).1).trans (congrArg Cert.Spec.turned128 ((W6_of_W4 m ρ c main_arg6 (by decide) (by decide)).trans (W4_arg m ρ c main_arg6 (by decide) (by decide) (by decide) (by decide))))
theorem in2_wn (c : Dev nD) : V7 m ρ c main_v51 = Cert.Spec.turned128 (m ((c : Thread nD τ).loc main_arg8)) :=
  ((stretch_w2 (W6 m ρ c)).2.1).trans (congrArg Cert.Spec.turned128 ((W6_of_W4 m ρ c main_arg8 (by decide) (by decide)).trans (W4_arg m ρ c main_arg8 (by decide) (by decide) (by decide) (by decide))))
theorem in2_b (c : Dev nD) : V7 m ρ c main_v52 = Cert.Spec.biasRow (m ((c : Thread nD τ).loc main_arg7)) :=
  ((stretch_w2 (W6 m ρ c)).2.2).trans (congrArg Cert.Spec.biasRow ((W6_of_W4 m ρ c main_arg7 (by decide) (by decide)).trans (W4_arg m ρ c main_arg7 (by decide) (by decide) (by decide) (by decide))))

end Cert.KernelIdeal.Val

end
-- ==== Proof.IdealDensePay.lean ====
/-
  The value a dense-layer body stores, read at one entry.

  The body narrows its four matrix operands to bf16 (the identity on the extended reals), recasts operands to their own
  shapes (the identity), multiplies the two pairs into zero accumulators, adds the two products, adds the bias row
  stretched down the rows, and takes the maximum with zero. At row p and column q that is
  max ((Σ_k A(p,k) Wa(k,q) + Σ_k Hm(p,k) Wh(k,q)) + b(0,q)) 0.
-/
import proofs.«134253_j70806830841996_1_alg».proof.Proof.Gen.KernelIdeal.Skeleton
import proofs.«134253_j70806830841996_1_alg».proof.Proof.LibDenseRelu
import Idealize.ShloMosaic.Lib.Pipeline.Value

noncomputable section

namespace Cert.KernelIdeal.Val

open Cert.KernelIdeal Cert.KernelIdeal.Gen
open Idealize.ShloMosaic Idealize.ShloMosaic.ValueIdx Cert.LibDenseRelu

/-- The zero offsets of a whole-block load or store. -/
theorem hz : (![0, 0] : Fin 2 → Nat) = fun _ => 0 := funext fun a => by fin_cases a <;> rfl

/-- Narrowing to a smaller float type is the identity on the extended reals. -/
theorem truncf_ideal {s : Shape} {φ ψ : FTy} (a : FVec Ideal s φ) (h : ψ.bits < φ.bits) :
    (truncf ψ a h : FVec Ideal s ψ) = a := rfl

/-- The first layer's stored value at row p, column q. -/
theorem pay0_at (x0 x1 : Vec Ideal S5000x64 .f32) (x2 x4 : Vec Ideal S64x128 .f32) (x3 : Vec Ideal S1x128 .f32)
    (p : Fin 5000) (q : Fin 128) :
    k0_pay1 (F := Ideal) x0 x1 x2 x4 x3 (ix2 p q) = pairReluAt (N := 5000) (K := 64) (H := 128) x0 x2 x1 x4 x3 p q := by
  unfold k0_pay1
  simp only [shapeCast_self, truncf_ideal]
  exact tile_pairRelu dot_S5000x64_S64x128_S5000x128_1_0_0_1_n_n rfl rfl rfl rfl (fun _ _ => rfl) (fun _ _ => rfl)
    none x0 x2 x1 x4 x3 broadcasts_S1x128_S5000x128 p q

/-- The second layer's stored value at row p, column q. -/
theorem pay1_at (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q) = pairReluAt (N := 5000) (K := 128) (H := 128) x0 x2 x1 x4 x3 p q := by
  unfold k1_pay1
  simp only [shapeCast_self, truncf_ideal]
  exact tile_pairRelu dot_S5000x128_S128x128_S5000x128_1_0_0_1_n_n rfl rfl rfl rfl (fun _ _ => rfl) (fun _ _ => rfl)
    none x0 x2 x1 x4 x3 broadcasts_S1x128_S5000x128 p q

end Cert.KernelIdeal.Val

end
-- ==== Proof.IdealDenseValue1.lean ====
/-
  The first dense-layer region's output array, at the extended reals.

  The region writes its output array in twenty row blocks of 5000 nodes. The block written at point t is the layer's
  value on the point's input blocks; an entry (5000 t + p, q) of the layer
  max ((Σ_k A(r,k) Wa(k,q) + Σ_k Hm(r,k) Wh(k,q)) + b(0,q)) 0 depends only on row r = 5000 t + p of the features A and of
  the neighbour means Hm, and those rows are row p of the point's two input blocks; the weights and the bias row are the
  same whole arrays at every point. The twenty blocks tile the array, so after the region the array is the layer of the
  arrays the region was entered with.
-/
import proofs.«134253_j70806830841996_1_alg».proof.Proof.IdealDenseRegions
import proofs.«134253_j70806830841996_1_alg».proof.Proof.IdealDensePay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.LibDenseRelu

variable (V : (c : Dev nD) → (b : Ref sig .tc) → Buf (Elt Ideal) ((c : Thread nD τ).loc b))

/-! ## The first layer's region -/

/-- The first layer as one matrix of the arrays the region is entered with. -/
abbrev layer1 (c : Dev nD) : (⟨2, ![100000, 128]⟩ : Shape).Idx → EReal :=
  pairRelu (N := 100000) (K := 64) (H := 128) (V c main_arg0) (V c main_v23) (V c main_v22) (V c main_v24) (V c main_v25)

/-- The block indices over the grid: the two feature windows and the output window are at row block t, column block 0;
    the weight and bias windows are at block (0, 0) at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer's matrix: rows 5000 t … 5000 t + 4999 of the layer depend only on
    the same rows of the features and of the neighbour means, which are the point's two input blocks. -/
theorem flushed0_eq (c : Dev nD) (t : Fin cfg0.N) :
    (dat0 (F := Ideal) V c).flushed 5 t = ((cfg0.win 5).blk t).view.read (Elt Ideal) (layer1 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e50, e51⟩ := idx0 t
  have h2 : iblk0 V c 2 t = V c main_v23 := by
    funext y
    show V c main_v23 (((cfg0.win 2).blk t).view.emb y) = V c main_v23 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 128 + 1 * (y 1).val = (y 1).val; omega
  have h3 : iblk0 V c 3 t = V c main_v25 := by
    funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have h4 : iblk0 V c 4 t = V c main_v24 := by
    funext y
    show V c main_v24 (((cfg0.win 4).blk t).view.emb y) = V c main_v24 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 128 + 1 * (y 1).val = (y 1).val; omega
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
    = layer1 V c (((cfg0.win 5).blk t).view.emb (ix2 p q))
  rw [h2, h3, h4]
  refine (pay0_at _ _ _ _ _ p q).trans ?_
  show pairReluAt _ _ _ _ _ p q = pairReluAt (V c main_arg0) (V c main_v23) (V c main_v22) (V c main_v24) (V c main_v25)
    ((((cfg0.win 5).blk t).view.emb (ix2 p q)) 0) ((((cfg0.win 5).blk t).view.emb (ix2 p q)) 1)
  refine pairReluAt_congr_row _ _ _ _ _ _ _ p _ q _ (fun k => ?_) (fun k => ?_) ?_
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  · show V c main_v22 (((cfg0.win 1).blk t).view.emb (ix2 p k)) = V c main_v22 (ix2 _ k)
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 64 + 1 * k.val = k.val; omega
  · show q.val = win0_5.index t (1 : Fin 2) * 128 + 1 * q.val; omega

/-- An entry of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every entry of the output array is written back by some point: row r by point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := rfl
  obtain ⟨t, ht⟩ : ∃ t : Fin cfg0.N, t.val = (i 0).val / 5000 := ⟨⟨(i 0).val / 5000, by omega⟩, rfl⟩
  obtain ⟨e00, e01, e10, e11, e20, e21, e30, e31, e40, e41, e50, e51⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the first layer of the arrays the region is entered with. -/
theorem layer1_arr (c : Dev nD) : (dat0 (F := Ideal) V c).arrAt 5 cfg0.N
    = Cert.LibDenseRelu.pairRelu (N := 100000) (K := 64) (H := 128) (V c main_arg0) (V c main_v23) (V c main_v22) (V c main_v24) (V c main_v25) :=
  (dat0 V c).arrAt_eq_of_cover 5 (layer1 V c) (fun t _ => flushed0_eq V c t) (cover0)

end Cert.KernelIdeal.Val

end
-- ==== Proof.IdealDenseValue2.lean ====
/-
  The second dense-layer region's output array, at the extended reals.

  The region writes its output array in twenty row blocks of 5000 nodes. The block written at point t is the layer's
  value on the point's input blocks; an entry (5000 t + p, q) of the layer
  max ((Σ_k A(r,k) Wa(k,q) + Σ_k Hm(r,k) Wh(k,q)) + b(0,q)) 0 depends only on row r = 5000 t + p of the features A and of
  the neighbour means Hm, and those rows are row p of the point's two input blocks; the weights and the bias row are the
  same whole arrays at every point. The twenty blocks tile the array, so after the region the array is the layer of the
  arrays the region was entered with.
-/
import proofs.«134253_j70806830841996_1_alg».proof.Proof.IdealDenseRegions
import proofs.«134253_j70806830841996_1_alg».proof.Proof.IdealDensePay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.LibDenseRelu

variable (V : (c : Dev nD) → (b : Ref sig .tc) → Buf (Elt Ideal) ((c : Thread nD τ).loc b))

/-! ## The second layer's region -/

/-- The second layer as one matrix of the arrays the region is entered with. -/
abbrev layer2 (c : Dev nD) : (⟨2, ![100000, 128]⟩ : Shape).Idx → EReal :=
  pairRelu (N := 100000) (K := 128) (H := 128) (V c main_v26) (V c main_v50) (V c main_v49) (V c main_v51) (V c main_v52)

/-- The block indices over the grid: the two feature windows and the output window are at row block t, column block 0;
    the weight and bias windows are at block (0, 0) at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer's matrix: rows 5000 t … 5000 t + 4999 of the layer depend only on
    the same rows of the features and of the neighbour means, which are the point's two input blocks. -/
theorem flushed1_eq (c : Dev nD) (t : Fin cfg1.N) :
    (dat1 (F := Ideal) V c).flushed 5 t = ((cfg1.win 5).blk t).view.read (Elt Ideal) (layer2 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx1 t
  have h2 : iblk1 V c 2 t = V c main_v50 := by
    funext y
    show V c main_v50 (((cfg1.win 2).blk t).view.emb y) = V c main_v50 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_v52 := by
    funext y
    show V c main_v52 (((cfg1.win 3).blk t).view.emb y) = V c main_v52 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : iblk1 V c 4 t = V c main_v51 := by
    funext y
    show V c main_v51 (((cfg1.win 4).blk t).view.emb y) = V c main_v51 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 4 t) (iblk1 V c 3 t) (ix2 p q)
    = layer2 V c (((cfg1.win 5).blk t).view.emb (ix2 p q))
  rw [h2, h3, h4]
  refine (pay1_at _ _ _ _ _ p q).trans ?_
  show pairReluAt _ _ _ _ _ p q = pairReluAt (V c main_v26) (V c main_v50) (V c main_v49) (V c main_v51) (V c main_v52)
    ((((cfg1.win 5).blk t).view.emb (ix2 p q)) 0) ((((cfg1.win 5).blk t).view.emb (ix2 p q)) 1)
  refine pairReluAt_congr_row _ _ _ _ _ _ _ p _ q _ (fun k => ?_) (fun k => ?_) ?_
  · show V c main_v26 (((cfg1.win 0).blk t).view.emb (ix2 p k)) = V c main_v26 (ix2 _ k)
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v49 (((cfg1.win 1).blk t).view.emb (ix2 p k)) = V c main_v49 (ix2 _ k)
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show q.val = win1_5.index t (1 : Fin 2) * 128 + 1 * q.val; omega

/-- An entry of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v53).slice (win1_5.rect t)).set ↔ _
  rw [View.set_slice_whole, Rect.mem_set_unit]
  exact Iff.rfl

/-- Every entry of the output array is written back by some point: row r by point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := rfl
  obtain ⟨t, ht⟩ : ∃ t : Fin cfg1.N, t.val = (i 0).val / 5000 := ⟨⟨(i 0).val / 5000, by omega⟩, rfl⟩
  obtain ⟨e00, e01, e10, e11, e20, e21, e30, e31, e40, e41, e50, e51⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the second layer of the arrays the region is entered with. -/
theorem layer2_arr (c : Dev nD) : (dat1 (F := Ideal) V c).arrAt 5 cfg1.N
    = Cert.LibDenseRelu.pairRelu (N := 100000) (K := 128) (H := 128) (V c main_v26) (V c main_v50) (V c main_v49) (V c main_v51) (V c main_v52) :=
  (dat1 V c).arrAt_eq_of_cover 5 (layer2 V c) (fun t _ => flushed1_eq V c t) (cover1)

end Cert.KernelIdeal.Val

end
-- ==== Proof.IdealDenseValue.lean ====
/-
  The two dense-layer regions' output arrays, at the extended reals: after each region its output array is the layer
  max ((A Wa + Hm Wh) + b) 0 of the arrays the region was entered with. One module per region; this one joins them.
-/
import proofs.«134253_j70806830841996_1_alg».proof.Proof.IdealDenseValue1
import proofs.«134253_j70806830841996_1_alg».proof.Proof.IdealDenseValue2
-- ==== Proof.IdealPoolPieces.lean ====
/-
  The pooling region of `KernelIdeal` read as values.

  What each of the body's three cases leaves is a term of the point's block and of the running row the point before
  left: the first point leaves `0 + column sums of its block`, a later point `row + column sums of its block`, and the
  last point also stores `row · c` into the output, c the named constant. At the ideal instance the column sums are
  plain finite sums over the block's 5000 rows, the cleared row is 0 and c is 1/100000.
-/
import proofs.«134253_j70806830841996_1_alg».proof.Proof.IdealPoolRegion
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.Tactic
open Idealize.ShloMosaic.Pipeline (Dat)

section Pieces
variable {F : FTy → Type} [FloatOps F] [Named F]

theorem offs_zero : (![0, 0] : Fin 2 → Nat) = fun _ => 0 := funext fun a => by fin_cases a <;> rfl

/-- The first point leaves the block's column sums added onto a cleared row. -/
theorem soutA_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (hc1 : ¬cond2_1 i) (x0 : Vec F S5000x128 .f32) :
    sout2_A_0 c i arg1 harg1 arg2 harg2 arg3 harg3 hc0 hc1 x0 = k2_pay2 k2_pay1 x0 := by
  unfold sout2_A_0
  rw [View.read_writes_eq_canon _ _ _ (scover2_A_0 c i arg1 harg1 arg2 harg2 arg3 harg3 hc0 hc1 x0)]
  unfold kernelRun2_A
  dsimp only
  try sl_unfold_words
  rw [View.canon_cons_unit_zero offs_zero, View.readCov_unit_zero (S := S1x128) _ offs_zero]
  simp only [View.readAt_eq_ld, harg1.read_unread, View.ld_unit_zero (S := S5000x128) offs_zero]

/-- A middle point adds the block's column sums onto the row the point before left. -/
theorem soutB_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : ¬cond2_1 i) (x0 : Vec F S5000x128 .f32) (xs0 : Vec F S1x128 .f32) :
    sout2_B_0 c i arg1 harg1 arg2 harg2 arg3 harg3 hc0 hc1 x0 xs0 = k2_pay2 xs0 x0 := by
  unfold sout2_B_0
  rw [View.read_writes_eq_canon _ _ _ (scover2_B_0 c i arg1 harg1 arg2 harg2 arg3 harg3 hc0 hc1 x0 xs0)]
  unfold kernelRun2_B
  dsimp only
  try sl_unfold_words
  rw [View.canon_unit_zero offs_zero]
  simp only [View.readAt_eq_ld, harg1.read_unread, harg3.read_unread, View.ld_unit_zero (S := S5000x128) offs_zero, View.ld_unit_zero (S := S1x128) offs_zero]

/-- So does the last point, -/
theorem soutC_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) :
    sout2_C_0 c i arg1 harg1 arg2 harg2 arg3 harg3 hc0 hc1 x0 xs0 = k2_pay2 xs0 x0 := by
  unfold sout2_C_0
  rw [View.read_writes_eq_canon _ _ _ (scover2_C_0 c i arg1 harg1 arg2 harg2 arg3 harg3 hc0 hc1 x0 xs0)]
  unfold kernelRun2_C
  dsimp only
  try sl_unfold_words
  rw [View.canon_unit_zero offs_zero]
  simp only [View.readAt_eq_ld, harg1.read_unread, harg3.read_unread, View.ld_unit_zero (S := S5000x128) offs_zero, View.ld_unit_zero (S := S1x128) offs_zero]

/-- which then stores that row times the constant into the output block. -/
theorem outC_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond2_0 i) (hc1 : cond2_1 i) (x0 : Vec F S5000x128 .f32) (xs0 : Vec F S1x128 .f32) :
    out2_C_1 c i arg1 harg1 arg2 harg2 arg3 harg3 hc0 hc1 x0 xs0 = k2_pay3 (k2_pay2 xs0 x0) := by
  unfold out2_C_1
  rw [View.read_writes_eq_canon _ _ _ (cover2_C_1 c i arg1 harg1 arg2 harg2 arg3 harg3 hc0 hc1 x0 xs0)]
  unfold kernelRun2_C
  dsimp only
  try sl_unfold_words
  rw [View.canon_unit_zero offs_zero, View.readCov_unit_zero (S := S1x128) _ offs_zero]
  simp only [View.readAt_eq_ld, harg1.read_unread, harg3.read_unread, View.ld_unit_zero (S := S5000x128) offs_zero, View.ld_unit_zero (S := S1x128) offs_zero]

end Pieces

/-! ## The three payloads at an index, over the extended reals -/

/-- The cleared row is zero. -/
theorem pay1_apply (q : Fin 128) : k2_pay1 (F := Ideal) (ix2 (0 : Fin 1) q) = 0 := by
  unfold k2_pay1
  rw [shapeCast_self, broadcast_apply]
  exact Ideal.ofBits_zero_f32

/-- Column q of "row + column sums of the block": the row's entry plus the sum of the block's column over its 5000 rows. -/
theorem pay2_apply (xs : FVec Ideal S1x128 .f32) (x : FVec Ideal S5000x128 .f32) (q : Fin 128) :
    k2_pay2 (F := Ideal) xs x (ix2 (0 : Fin 1) q) = xs (ix2 (0 : Fin 1) q) + ∑ r : Fin 5000, x (ix2 r q) := by
  unfold k2_pay2
  rw [shapeCast_self, shapeCast_self, addf_apply, shapeCast_a_1a_apply]
  refine congrArg (xs (ix2 (0 : Fin 1) q) + ·) ((Ideal.multiReduction_add_single x _ _ _ _ (ix1 q)).trans ?_)
  refine Finset.sum_congr rfl fun r _ => congrArg x (funext fun a => Fin.ext ?_)
  match a with
  | ⟨0, _⟩ => rfl
  | ⟨1, _⟩ => rfl

/-- Column q of "row times the constant": the row's entry times 1/100000. -/
theorem pay3_apply (v : FVec Ideal S1x128 .f32) (q : Fin 128) :
    k2_pay3 (F := Ideal) v (ix2 (0 : Fin 1) q) = v (ix2 (0 : Fin 1) q) * ((1 / 100000 : ℝ) : EReal) := by
  unfold k2_pay3
  rw [mulf_apply, broadcast_apply]
  exact congrArg _ (IdealRules.named_const.ideal_named_scalar _ _ _ _ rfl)

end Cert.KernelIdeal.Val

end
-- ==== Proof.LibRangeSums.lean ====
/-
  Finite sums cut into runs, in any commutative additive monoid.

  A sum over a·b consecutive naturals is a sum of a runs of b (or, position first, of b strides across the a runs), and
  a sum over a rank-3 index set is the triple sum over its coordinates. Nothing here depends on a particular program.
-/
import Idealize.ShloMosaic.Lib.ValueIdx

namespace Cert.LibRangeSums

open Idealize.ShloMosaic Idealize.ShloMosaic.ValueIdx Finset

variable {M : Type*} [AddCommMonoid M]

/-- A sum over a·b consecutive naturals is the sum of a runs of b: r = i·b + j with i < a, j < b. -/
theorem sum_range_mul (a b : ℕ) (f : ℕ → M) :
    ∑ r ∈ range (a * b), f r = ∑ i ∈ range a, ∑ j ∈ range b, f (i * b + j) := by
  induction a with
  | zero => simp
  | succ a ih => rw [Nat.succ_mul, sum_range_add, ih, sum_range_succ]

/-- The same sum taken position-in-the-run first: for each position j < b, across the a runs. -/
theorem sum_range_mul_pos_first (a b : ℕ) (f : ℕ → M) :
    ∑ r ∈ range (a * b), f r = ∑ j ∈ range b, ∑ i ∈ range a, f (i * b + j) := by
  rw [sum_range_mul, sum_comm]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine sum_congr rfl fun a _ => ?_
  rw [Fintype.sum_prod_type]
  rfl

end Cert.LibRangeSums
-- ==== Proof.IdealPoolValue.lean ====
/-
  The pooling region's output array, as a function of the array it reads.

  Block t of the input is rows 5000 t … 5000 t + 4999 of the [100000, 128] array. After point n the running row holds,
  in column q, the sum over blocks 0 … n of the block's column sums; the last point multiplies by 1/100000 and its block —
  the whole [1, 128] output — is the only one written back. Twenty runs of 5000 consecutive rows are all 100000 rows, so
  the output's entry (0, q) is the column's sum over every node times 1/100000.
-/
import proofs.«134253_j70806830841996_1_alg».proof.Proof.IdealPoolPieces
import proofs.«134253_j70806830841996_1_alg».proof.Proof.LibRangeSums
import proofs.«134253_j70806830841996_1_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.Tactic
open Idealize.ShloMosaic.Pipeline (Dat)

variable (V : (c : Dev nD) → (b : Ref sig .tc) → Buf (Elt Ideal) ((c : Thread nD τ).loc b))

/-- The array the region reads, as a matrix over the extended reals. -/
abbrev nodes (c : Dev nD) : FVec Ideal S100000x128 .f32 := V c main_v53

/-- The input window's block at point `t` is rows `5000 t … 5000 t + 4999` of the array. -/
theorem iblk2_apply (c : Dev nD) (t : Fin cfg2.N) (x : S5000x128.Idx) (k : S100000x128.Idx)
    (hk0 : (k 0).val = 5000 * t.val + (x 0).val) (hk1 : (k 1).val = (x 1).val) :
    (iblk2 V c 0 t : FVec Ideal S5000x128 .f32) x = nodes V c k := by
  have hi : win2_0.index t 0 = t.val ∧ win2_0.index t 1 = 0 :=
    (by decide +kernel : ∀ t : Fin grid2.N, win2_0.index t 0 = t.val ∧ win2_0.index t 1 = 0) t
  unfold iblk2
  rw [View.read_apply]
  show V c main_v53 _ = V c main_v53 _
  congr 1
  funext a
  apply Fin.ext
  match a with
  | ⟨0, _⟩ => show win2_0.index t 0 * 5000 + 1 * (x 0).val = (k 0).val; rw [hi.1, hk0]; omega
  | ⟨1, _⟩ => show win2_0.index t 1 * 128 + 1 * (x 1).val = (k 1).val; rw [hi.2, hk1]; omega

/-- Column q of the array along the natural numbers (zero past the last row). -/
def colAt (c : Dev nD) (q : Fin 128) (i : ℕ) : EReal := if h : i < 100000 then nodes V c (ix2 (⟨i, h⟩ : Fin 100000) q) else 0

/-- The column sums of block t (zero past the last block). -/
def blockSum (c : Dev nD) (q : Fin 128) (t : ℕ) : EReal :=
  if h : t < cfg2.N then ∑ r : Fin 5000, (iblk2 V c 0 ⟨t, h⟩ : FVec Ideal S5000x128 .f32) (ix2 r q) else 0

/-- Block t's column sum is the column summed over rows 5000 t … 5000 t + 4999. -/
theorem blockSum_eq (c : Dev nD) (q : Fin 128) (t : ℕ) (ht : t < 20) :
    blockSum V c q t = ∑ r ∈ Finset.range 5000, colAt V c q (t * 5000 + r) := by
  have hN : t < cfg2.N := lt_of_lt_of_eq ht N_2.symm
  unfold blockSum
  rw [dif_pos hN, Finset.sum_range]
  refine Finset.sum_congr rfl fun r _ => ?_
  have hr := r.isLt
  have hlt : t * 5000 + r.val < 100000 := by omega
  unfold colAt
  rw [dif_pos hlt]
  exact iblk2_apply V c ⟨t, hN⟩ (ix2 r q) (ix2 (⟨t * 5000 + r.val, hlt⟩ : Fin 100000) q) (by show t * 5000 + r.val = 5000 * t + r.val; omega) rfl

/-- After point n the running row's column q holds the column sums of blocks 0 … n. -/
theorem row_after (c : Dev nD) (q : Fin 128) : ∀ (n : ℕ) (hn : n < cfg2.N),
    (outsAt2 V c n hn).2 (ix2 (0 : Fin 1) q) = ∑ t ∈ Finset.range (n + 1), blockSum V c q t
  | 0, hn => by
    rw [outsAt2_A V c ⟨0, hn⟩ rfl (show ¬((0 : ℕ) = 19) by decide)]
    dsimp only
    rw [soutA_eq, pay2_apply, pay1_apply, zero_add, Finset.sum_range_one]
    unfold blockSum
    rw [dif_pos hn]
  | n + 1, hn => by
    have ih := row_after c q n (Nat.lt_of_succ_lt hn)
    by_cases h1 : n + 1 = 19
    · rw [outsAt2_C V c ⟨n + 1, hn⟩ (Nat.succ_ne_zero n) h1]
      dsimp only
      rw [soutC_eq, pay2_apply]
      show (outsAt2 V c n _).2 _ + _ = _
      rw [ih, Finset.sum_range_succ _ (n + 1)]
      unfold blockSum
      rw [dif_pos hn]
    · rw [outsAt2_B V c ⟨n + 1, hn⟩ (Nat.succ_ne_zero n) h1]
      dsimp only
      rw [soutB_eq, pay2_apply]
      show (outsAt2 V c n _).2 _ + _ = _
      rw [ih, Finset.sum_range_succ _ (n + 1)]
      unfold blockSum
      rw [dif_pos hn]

/-- The last point. -/
abbrev tLast : Fin cfg2.N := ⟨19, by rw [show cfg2.N = 20 from N_2]; decide⟩

/-- Twenty runs of 5000 rows are all the rows: the blocks' column sums add up to the column's sum over every node. -/
theorem blocks_total (c : Dev nD) (q : Fin 128) :
    ∑ t ∈ Finset.range 20, blockSum V c q t = ∑ i : Fin 100000, nodes V c (ix2 i q) := by
  rw [Finset.sum_congr rfl fun t ht => blockSum_eq V c q t (Finset.mem_range.mp ht),
    ← Cert.LibRangeSums.sum_range_mul 20 5000 (colAt V c q), show 20 * 5000 = 100000 from rfl, Finset.sum_range]
  refine Finset.sum_congr rfl fun i _ => ?_
  unfold colAt
  rw [dif_pos i.isLt]

/-- What the output's buffer holds after the last point: in column q, the column's sum over every node times 1/100000. -/
theorem out_last (c : Dev nD) (q : Fin 128) :
    (outsAt2 V c tLast.val tLast.isLt).1 (ix2 (0 : Fin 1) q) = Cert.Spec.pooledAt (nodes V c) q := by
  rw [outsAt2_C V c tLast (show ¬((19 : ℕ) = 0) by decide) rfl]
  dsimp only
  rw [outC_eq, pay3_apply, pay2_apply]
  have h18 : 18 < cfg2.N := by rw [show cfg2.N = 20 from N_2]; decide
  show ((outsAt2 V c 18 _).2 _ + _) * _ = _
  rw [row_after V c q 18 h18]
  have e : @Eq EReal (blockSum V c q 19) (∑ r : Fin 5000, (iblk2 V c 0 tLast : FVec Ideal S5000x128 .f32) (ix2 r q)) := by
    unfold blockSum; rw [dif_pos tLast.isLt]
  rw [← e, ← Finset.sum_range_succ _ 19, blocks_total]
  rfl

/-- The output array as one function: its entry (0, q) is the pooled column q. -/
def pooledRow (c : Dev nD) : Buf (Elt Ideal) ((c : Thread nD τ).loc main_v54) :=
  fun j => Cert.Spec.pooledAt (nodes V c) (j 1)

/-- The one write-back, at the last point, writes `pooledRow`: block (0, 0) of the [1, 128] array is the array. -/
theorem flushed2_eq (c : Dev nD) (t : Fin cfg2.N) (hf : (cfg2.win 1).flush t = true) :
    (dat2 V c).flushed 1 t = ((cfg2.win 1).blk t).view.read (Elt Ideal) (pooledRow V c) := by
  have hN : cfg2.N = 20 := N_2
  have h1 : t.val = 19 := by have := (flush2_1 t).mp hf; have := t.isLt; omega
  obtain rfl : t = tLast := Fin.ext h1
  show (cfg2.win 1).cut (grid2.coords tLast) ((dat2 V c).after 1 tLast) = _
  rw [after2_1]
  have hrow : (outsAt2 V c tLast.val tLast.isLt).1 = (pooledRow V c : S1x128.Idx → EReal) := by
    funext j
    obtain ⟨z, q, rfl⟩ : ∃ (z : Fin 1) (q : Fin 128), j = ix2 z q := ⟨j 0, j 1, eq_ix2 j⟩
    obtain rfl : z = 0 := Subsingleton.elim _ _
    exact out_last V c q
  rw [hrow]
  have hz' : (fun a => win2_1.index tLast a * main_v54.ty.shape.size a) = fun _ => 0 := funext fun a => by fin_cases a <;> decide
  exact (Memref.read_access_unit_zero (Elt Ideal) main_v54 hz' (fun a => by rw [congrFun hz' a]; simp) (pooledRow V c)).symm

/-- So the output array ends holding `pooledRow`: the last point's block covers it. -/
theorem pool_arr (c : Dev nD) : (dat2 V c).arrAt 1 cfg2.N = pooledRow V c :=
  (dat2 V c).arrAt_eq_of_cover 1 (pooledRow V c) (flushed2_eq V c) fun i =>
    ⟨tLast, (flush2_1 tLast).mpr rfl, by
      show i ∈ ((View.whole main_v54).slice (win2_1.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_1.index tLast 0 * win2_1.size 0 ≤ (i 0 : Nat) ∧ (i 0 : Nat) < win2_1.index tLast 0 * win2_1.size 0 + win2_1.xsize (grid2.coords tLast) 0
                  rw [show win2_1.index tLast 0 * win2_1.size 0 = 0 from by decide +kernel, show win2_1.xsize (grid2.coords tLast) 0 = 1 from by decide +kernel]; omega
      | ⟨1, _⟩ => show win2_1.index tLast 1 * win2_1.size 1 ≤ (i 1 : Nat) ∧ (i 1 : Nat) < win2_1.index tLast 1 * win2_1.size 1 + win2_1.xsize (grid2.coords tLast) 1
                  rw [show win2_1.index tLast 1 * win2_1.size 1 = 0 from by decide +kernel, show win2_1.xsize (grid2.coords tLast) 1 = 128 from by decide +kernel]; omega⟩

end Cert.KernelIdeal.Val

end
-- ==== Proof.IdealValue.lean ====
/-
  The idealized kernel's result as one function of its arguments.

  Walking the boundaries: the first dense region leaves the first layer of the node features; the stretches after it
  compute that layer's neighbour means; the second dense region leaves the second layer; the pooling region leaves, per
  column, the column's sum over every node times 1/100000; the last reshape lays that row out as the result vector.
-/
import proofs.«134253_j70806830841996_1_alg».proof.Proof.IdealHostReads
import proofs.«134253_j70806830841996_1_alg».proof.Proof.IdealDenseValue
import proofs.«134253_j70806830841996_1_alg».proof.Proof.IdealPoolValue

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first dense region its output array holds the first layer. -/
theorem hidden1 (c : Dev nD) : W4 m ρ c (Proc.devRef .tc main_v26) = (Cert.Spec.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 5).trans ((layer1_arr (V3 m ρ) c).trans ?_)
  rw [in1_feat, in1_ws, in1_nbr, in1_wn, in1_b]
  rfl

/-- After the second dense region its output array holds the second layer. -/
theorem hidden2 (c : Dev nD) : W8 m ρ c (Proc.devRef .tc main_v53) = (Cert.Spec.layer2 (Cert.Spec.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) := by
  refine (W8_arr m ρ c 5).trans ((layer2_arr (V7 m ρ) c).trans ?_)
  rw [in2_h, in2_ws, in2_nbr, in2_wn, in2_b, hidden1]
  rfl

/-- The result vector: the second layer pooled over the nodes. -/
theorem result_eq (c : Dev nD) : W10 m ρ c (Proc.devRef .tc main_v55) = Cert.Spec.encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (stretch_out (W9 m ρ c)).trans ?_
  funext j
  obtain ⟨q, rfl⟩ : ∃ q : Fin 128, j = ix1 q := ⟨j 0, eq_ix1 j⟩
  rw [shapeCast_1a_a_apply, (W9_arr m ρ c 1).trans (pool_arr (V8 m ρ) c)]
  show Cert.Spec.pooledAt (W8 m ρ c (Proc.devRef .tc main_v53)) q = Cert.Spec.pooledAt _ q
  rw [hidden2]

/-- THE RUN, READ: every weakly fair execution of the idealized kernel terminates with the result at the encoder of the
    argument arrays and the arguments unchanged. -/
theorem run : θ_run defs (onTc (τ := τ) (main (F := Ideal))) ⟨m, fun _ => 0, ρ⟩ (fun r => ∀ c : Dev nD,
      r.2.mem ((c.tc : Thread nD τ).loc main_v55) = Cert.Spec.encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v55 (by decide))).trans (result_eq m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c)⟩) (run_all m ρ)

end Cert.KernelIdeal.Val

end
-- ==== Proof.RefNbr.lean ====
/-
  The reference's neighbour mean is the named neighbour mean.

  Both are the same chain of host operations applied to the same three arrays (a gather of rows at the edges' sources, a
  scatter-add by destination, a count of incoming edges, a quotient guarded by the count being positive). The two
  spellings differ only in which program's shape records they cite, and those records hold the same literals.
-/
import proofs.«134253_j70806830841996_1_alg».proof.ReferenceIdeal
import proofs.«134253_j70806830841996_1_alg».proof.Proof.Spec

noncomputable section

namespace Cert.ReferenceIdeal.RefValue

open Idealize.ShloMosaic Idealize.ShloMosaic.ValueIdx Cert.ReferenceIdeal
open Cert.ReferenceIdeal.Facts₀ Cert.ReferenceIdeal.Facts

variable [Cert.KernelIdeal.Facts] [Cert.ReferenceIdeal.Facts]

/-- The neighbour mean of a 64-column array, as the reference spells it. -/
theorem nbr64_eq (x : FVec Ideal S100000x64 .f32) (src dst : (⟨S1600000, .i32⟩ : BufTy).Contents (Elt Ideal)) :
    (select (broadcastInDim S100000x64 ![0, 1] bcast_S100000x1_S100000x64_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x64 ![] bcast_S_S100000x64 (id (constant (F := Ideal) S_ .f32 0x00000000#32))))
      = Cert.Spec.nbrMean64 x src dst := rfl

/-- The neighbour mean of a 128-column array, as the reference spells it. -/
theorem nbr128_eq (h : FVec Ideal S100000x128 .f32) (src dst : (⟨S1600000, .i32⟩ : BufTy).Contents (Elt Ideal)) :
    (select (broadcastInDim S100000x128 ![0, 1] bcast_S100000x1_S100000x128_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x128 ![] bcast_S_S100000x128 (id (constant (F := Ideal) S_ .f32 0x00000000#32))))
      = Cert.Spec.nbrMean128 h src dst := rfl

end Cert.ReferenceIdeal.RefValue

end
-- ==== Proof.RefLayer.lean ====
/-
  The reference's two layers and its pooling, each as the named function of its operands.

  A layer of the reference is max (((h Wsᵀ) + b) + (mean Wnᵀ)) 0 with the bias placed as a row and stretched down the
  rows: the same number at every entry as max (((h Wsᵀ) + (mean Wnᵀ)) + b) 0, since addition on the extended reals is
  commutative and associative. Placing the bias vector as a row and recasting it as a one-row matrix are one array.

  The pooling sums each column over the 100000 rows from 0 and divides by the constant whose pattern 0x47C35000 is
  100000 = 1.52587890625 · 2^16. Division of an extended real by a real that is not zero is the product with its
  reciprocal.
-/
import proofs.«134253_j70806830841996_1_alg».proof.Proof.RefNbr

noncomputable section

namespace Cert.ReferenceIdeal.RefValue

open Idealize.ShloMosaic Idealize.ShloMosaic.ValueIdx Cert.ReferenceIdeal
open Cert.ReferenceIdeal.Facts₀ Cert.ReferenceIdeal.Facts

variable [Cert.KernelIdeal.Facts] [Cert.ReferenceIdeal.Facts]

/-- The pattern 0x47C35000 denotes the real 100000. -/
theorem ofBits_100000 : Ideal.ofBits .f32 0x47C35000#32 = ((100000 : ℝ) : EReal) := by
  simp [Ideal.ofBits, Ideal.ieee, -EReal.coe_mul]; norm_num

/-- The first layer. -/
theorem layer1_eq (x : FVec Ideal S100000x64 .f32) (src dst : (⟨S1600000, .i32⟩ : BufTy).Contents (Elt Ideal))
    (Ws1 : FVec Ideal S128x64 .f32) (b1 : FVec Ideal S128 .f32) (Wn1 : FVec Ideal S128x64 .f32) :
    (maximumf (addf (addf (Host.dotGeneral dot_S100000x64_S64x128_S100000x128_1_0_0_1_n_n none x (transpose S64x128 [1, 0] Ws1 transposes_S128x64_S64x128_1_0)) (broadcastInDim S100000x128 ![0, 1] bcast_S1x128_S100000x128_0_1 (broadcastInDim S1x128 ![1] bcast_S128_S1x128_1 b1))) (Host.dotGeneral dot_S100000x64_S64x128_S100000x128_1_0_0_1_n_n none (select (broadcastInDim S100000x64 ![0, 1] bcast_S100000x1_S100000x64_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x64 ![] bcast_S_S100000x64 (id (constant (F := Ideal) S_ .f32 0x00000000#32)))) (transpose S64x128 [1, 0] Wn1 transposes_S128x64_S64x128_1_0))) (broadcastInDim S100000x128 ![] bcast_S_S100000x128 (constant (F := Ideal) S_ .f32 0x00000000#32)))
      = Cert.Spec.layer1 x src dst Ws1 b1 Wn1 := by
  rw [nbr64_eq x src dst]
  unfold Cert.Spec.layer1 Cert.Spec.biasRow Cert.Spec.turned64
  rw [Cert.LibCastForms.row_cast_eq_bcast b1 _ bcast_S128_S1x128_1]
  exact Cert.LibDenseRelu.host_pairRelu dot_S100000x64_S64x128_S100000x128_1_0_0_1_n_n rfl rfl rfl rfl
    (fun _ _ => rfl) (fun _ _ => rfl) none _ _ _ _ _ _ _

/-- The second layer. -/
theorem layer2_eq (h : FVec Ideal S100000x128 .f32) (src dst : (⟨S1600000, .i32⟩ : BufTy).Contents (Elt Ideal))
    (Ws2 : FVec Ideal S128x128 .f32) (b2 : FVec Ideal S128 .f32) (Wn2 : FVec Ideal S128x128 .f32) :
    (maximumf (addf (addf (Host.dotGeneral dot_S100000x128_S128x128_S100000x128_1_0_0_1_n_n none h (transpose S128x128 [1, 0] Ws2 transposes_S128x128_S128x128_1_0)) (broadcastInDim S100000x128 ![0, 1] bcast_S1x128_S100000x128_0_1 (broadcastInDim S1x128 ![1] bcast_S128_S1x128_1 b2))) (Host.dotGeneral dot_S100000x128_S128x128_S100000x128_1_0_0_1_n_n none (select (broadcastInDim S100000x128 ![0, 1] bcast_S100000x1_S100000x128_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x128 ![] bcast_S_S100000x128 (id (constant (F := Ideal) S_ .f32 0x00000000#32)))) (transpose S128x128 [1, 0] Wn2 transposes_S128x128_S128x128_1_0))) (broadcastInDim S100000x128 ![] bcast_S_S100000x128 (constant (F := Ideal) S_ .f32 0x00000000#32)))
      = Cert.Spec.layer2 h src dst Ws2 b2 Wn2 := by
  rw [nbr128_eq h src dst]
  unfold Cert.Spec.layer2 Cert.Spec.biasRow Cert.Spec.turned128
  rw [Cert.LibCastForms.row_cast_eq_bcast b2 _ bcast_S128_S1x128_1]
  exact Cert.LibDenseRelu.host_pairRelu dot_S100000x128_S128x128_S100000x128_1_0_0_1_n_n rfl rfl rfl rfl
    (fun _ _ => rfl) (fun _ _ => rfl) none _ _ _ _ _ _ _

/-- A column's sum over the rows, with the summation index placed as the row coordinate. -/
theorem colsum_lift {N B : ℕ} (H : (⟨2, ![N, B]⟩ : Shape).Idx → EReal)
    (hred : (⟨2, ![N, B]⟩ : Shape).Reduces [0] ⟨1, ![B]⟩) (q : Fin B) :
    ∑ k : Fin ((⟨2, ![N, B]⟩ : Shape).size 0), H (hred.lift (ix1 q) k) = ∑ i : Fin N, H (ix2 i q) := by
  refine Finset.sum_congr rfl fun k _ => congrArg H (funext fun a => Fin.ext ?_)
  match a with
  | ⟨0, _⟩ => rfl
  | ⟨1, _⟩ => rfl

/-- The pooling: every column's sum over the rows, divided by 100000. -/
theorem pool_eq (H : FVec Ideal S100000x128 .f32) :
    Host.divf (Host.reduceAdd H (constant (F := Ideal) S_ .f32 0x00000000#32) reducesTo_S100000x128_S128_d0 h_S_) (broadcastInDim S128 ![] bcast_S_S128 (constant (F := Ideal) S_ .f32 0x47C35000#32))
      = Cert.Spec.pooled H := by
  have hred : S100000x128.Reduces [0] S128 := by decide
  funext j
  obtain ⟨q, rfl⟩ : ∃ q : Fin 128, j = ix1 q := ⟨j 0, eq_ix1 j⟩
  rw [hostDivf_apply, hostReduceAdd_apply, broadcastInDim_scalar_apply, constant_apply, constant_apply,
    Ideal.hostReduceAdd_single reducesTo_S100000x128_S128_d0 hred, Ideal.ofBits_zero_f32, zero_add, ofBits_100000,
    Ideal.div_coe (by norm_num : (100000 : ℝ) ≠ 0)]
  exact congrArg (· * (((1 / 100000 : ℝ) : ℝ) : EReal)) (colsum_lift (N := 100000) (B := 128) H hred q)

end Cert.ReferenceIdeal.RefValue

end
-- ==== Proof.RefValue.lean ====
/-
  The reference's result, as a function of its nine arguments, is the encoder.

  The result term is the pooling of the second layer of the first layer, each spelt with host operations; every piece is
  the named function of its operands (the neighbour means, the two layers, the pooling), so the whole is their
  composition, which is the encoder by definition.
-/
import proofs.«134253_j70806830841996_1_alg».proof.Proof.RefRun
import proofs.«134253_j70806830841996_1_alg».proof.Proof.RefLayer

noncomputable section

namespace Cert.ReferenceIdeal.RefValue

open Idealize.ShloMosaic Idealize.ShloMosaic.ValueIdx Idealize.ShloMosaic.TcCoe Idealize.SL.Sem Cert.ReferenceIdeal
open Cert.ReferenceIdeal.Facts₀ Cert.ReferenceIdeal.Facts

variable [Cert.KernelIdeal.Facts] [Cert.ReferenceIdeal.Facts]

/-- The result term over nine arrays: pooling after the second layer after the first. -/
theorem term_eq (x : FVec Ideal S100000x64 .f32) (src dst : (⟨S1600000, .i32⟩ : BufTy).Contents (Elt Ideal))
    (Ws1 : FVec Ideal S128x64 .f32) (b1 : FVec Ideal S128 .f32) (Wn1 : FVec Ideal S128x64 .f32)
    (Ws2 : FVec Ideal S128x128 .f32) (b2 : FVec Ideal S128 .f32) (Wn2 : FVec Ideal S128x128 .f32) :
    Host.divf (Host.reduceAdd (maximumf (addf (addf (Host.dotGeneral dot_S100000x128_S128x128_S100000x128_1_0_0_1_n_n none (maximumf (addf (addf (Host.dotGeneral dot_S100000x64_S64x128_S100000x128_1_0_0_1_n_n none x (transpose S64x128 [1, 0] Ws1 transposes_S128x64_S64x128_1_0)) (broadcastInDim S100000x128 ![0, 1] bcast_S1x128_S100000x128_0_1 (broadcastInDim S1x128 ![1] bcast_S128_S1x128_1 b1))) (Host.dotGeneral dot_S100000x64_S64x128_S100000x128_1_0_0_1_n_n none (select (broadcastInDim S100000x64 ![0, 1] bcast_S100000x1_S100000x64_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x64 ![] bcast_S_S100000x64 (id (constant (F := Ideal) S_ .f32 0x00000000#32)))) (transpose S64x128 [1, 0] Wn1 transposes_S128x64_S64x128_1_0))) (broadcastInDim S100000x128 ![] bcast_S_S100000x128 (constant (F := Ideal) S_ .f32 0x00000000#32))) (transpose S128x128 [1, 0] Ws2 transposes_S128x128_S128x128_1_0)) (broadcastInDim S100000x128 ![0, 1] bcast_S1x128_S100000x128_0_1 (broadcastInDim S1x128 ![1] bcast_S128_S1x128_1 b2))) (Host.dotGeneral dot_S100000x128_S128x128_S100000x128_1_0_0_1_n_n none (select (broadcastInDim S100000x128 ![0, 1] bcast_S100000x1_S100000x128_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 (maximumf (addf (addf (Host.dotGeneral dot_S100000x64_S64x128_S100000x128_1_0_0_1_n_n none x (transpose S64x128 [1, 0] Ws1 transposes_S128x64_S64x128_1_0)) (broadcastInDim S100000x128 ![0, 1] bcast_S1x128_S100000x128_0_1 (broadcastInDim S1x128 ![1] bcast_S128_S1x128_1 b1))) (Host.dotGeneral dot_S100000x64_S64x128_S100000x128_1_0_0_1_n_n none (select (broadcastInDim S100000x64 ![0, 1] bcast_S100000x1_S100000x64_0_1 (cmpf .ogt (broadcastInDim S100000x1 ![0] bcast_S100000_S100000x1_0 (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000x1 ![] bcast_S_S100000x1 (constant (F := Ideal) S_ .f32 0x00000000#32)))) (Host.divf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x64 ![] bcast_S_S100000x64 (id (constant (F := Ideal) S_ .f32 0x00000000#32)))) (transpose S64x128 [1, 0] Wn1 transposes_S128x64_S64x128_1_0))) (broadcastInDim S100000x128 ![] bcast_S_S100000x128 (constant (F := Ideal) S_ .f32 0x00000000#32))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))))) (broadcastInDim S100000x128 ![] bcast_S_S100000x128 (id (constant (F := Ideal) S_ .f32 0x00000000#32)))) (transpose S128x128 [1, 0] Wn2 transposes_S128x128_S128x128_1_0))) (broadcastInDim S100000x128 ![] bcast_S_S100000x128 (constant (F := Ideal) S_ .f32 0x00000000#32))) (constant (F := Ideal) S_ .f32 0x00000000#32) reducesTo_S100000x128_S128_d0 h_S_) (broadcastInDim S128 ![] bcast_S_S128 (constant (F := Ideal) S_ .f32 0x47C35000#32))
      = Cert.Spec.encoder x src dst Ws1 b1 Wn1 Ws2 b2 Wn2 := by
  rw [layer1_eq x src dst Ws1 b1 Wn1, layer2_eq _ src dst Ws2 b2 Wn2, pool_eq]
  rfl

/-- The reference's result at the nine argument arrays of any memory. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v66 (F := Ideal) m c
      = Cert.Spec.encoder
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) := by
  unfold Cert.ReferenceIdeal.ValueP.res_main_v66
  exact term_eq _ _ _ _ _ _ _ _ _

end Cert.ReferenceIdeal.RefValue

end
-- ==== Proof.lean ====
/-
  The certificate of the two-layer neighbour-mean encoder: three frames, the one named constant, and the equality of the
  idealized kernel and the idealized reference over the extended reals.

  Both programs compute, from node features x, an edge list (src, dst) and two layers' weights, two rounds of
  max ((h · Wsᵀ + mean(h) · Wnᵀ) + b, 0) — the neighbour mean the same host computation in both —, then the mean of the
  result over the 100000 nodes. The kernel runs each layer as a pipeline over twenty blocks of 5000 nodes and the final
  mean as a third pipeline that keeps a running row of column sums and multiplies by the named constant 1/100000 at the
  last block; the reference uses whole-array products, adds the bias before the neighbour term, and divides the column
  sums by 100000. Addition on the extended reals is commutative and associative, a sum over twenty runs of 5000 rows is
  the sum over all rows, and dividing by 100000 is multiplying by 1/100000: no finiteness is needed, so the
  precondition is never opened.
-/
import proofs.«134253_j70806830841996_1_alg».proof.Defs
import proofs.«134253_j70806830841996_1_alg».proof.Proof.Gen.Kernel
import proofs.«134253_j70806830841996_1_alg».proof.Proof.Gen.KernelIdeal
import proofs.«134253_j70806830841996_1_alg».proof.Proof.Gen.ReferenceIdeal
import proofs.«134253_j70806830841996_1_alg».proof.Proof.Gen.Pre_finite_inputs
import proofs.«134253_j70806830841996_1_alg».proof.Proof.WordRun
import proofs.«134253_j70806830841996_1_alg».proof.Proof.IdealValue
import proofs.«134253_j70806830841996_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the pooling constant is named 1/100000, and the table gives it that value. -/
theorem preserves : Cert.preserves_Kernel_KernelIdeal :=
  IdealRules.named_const.statement Cert.KernelIdeal.κ "inv_100000" .f32 0x3727C5AC#32 ((1 / 100000 : ℝ) : EReal) rfl

/-- Both idealized programs end at the encoder of their (agreeing) arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
